-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x512x512 : Shape := ⟨4, ![32, 2, 512, 512]⟩
abbrev S_ : Shape := ⟨0, ![]⟩

class Facts : Prop where
  bcast_S_S32x2x512x512 : S_.BroadcastsInDim S32x2x512x512 (![] : Fin 0 → Fin S32x2x512x512.rank)
  reducesTo_S32x2x512x512_S_d0_1_2_3 : S32x2x512x512.ReducesTo [0, 1, 2, 3] S_
  h_S_ : 0 < S_.numel

variable [Facts]

def fn {F : FTy → Type} [FloatOps F] (main_arg0 : FVec F S32x2x512x512 .f32) (main_arg1 : FVec F S32x2x512x512 .f32) : IVec S_ 1 :=
  let main_v0 : FVec F S32x2x512x512 .f32 := Host.absf main_arg0
  let main_cst : FVec F S_ .f32 := constant S_ .f32 0x7F800000#32
  let main_v1 : FVec F S32x2x512x512 .f32 := broadcastInDim S32x2x512x512 ![] bcast_S_S32x2x512x512 main_cst
  let main_v2 : IVec S32x2x512x512 1 := cmpf .olt main_v0 main_v1
  let main_c : IVec S_ 1 := constantI S_ 1 1#1
  let main_v3 : IVec S_ 1 := (fun x v => Host.reduce IntOp.andi x v reducesTo_S32x2x512x512_S_d0_1_2_3 h_S_) main_v2 main_c
  let main_v4 : FVec F S32x2x512x512 .f32 := Host.absf main_arg1
  let main_cst_0 : FVec F S_ .f32 := constant S_ .f32 0x7F800000#32
  let main_v5 : FVec F S32x2x512x512 .f32 := broadcastInDim S32x2x512x512 ![] bcast_S_S32x2x512x512 main_cst_0
  let main_v6 : IVec S32x2x512x512 1 := cmpf .olt main_v4 main_v5
  let main_c_1 : IVec S_ 1 := constantI S_ 1 1#1
  let main_v7 : IVec S_ 1 := (fun x v => Host.reduce IntOp.andi x v reducesTo_S32x2x512x512_S_d0_1_2_3 h_S_) main_v6 main_c_1
  let main_v8 : IVec S_ 1 := andi main_v3 main_v7
  main_v8
-- ==== Kernel.lean ====
abbrev S32x2x512x512 : Shape := ⟨4, ![32, 2, 512, 512]⟩
abbrev S32x2x262144 : Shape := ⟨3, ![32, 2, 262144]⟩
abbrev S32x262144 : Shape := ⟨2, ![32, 262144]⟩
abbrev S1x2 : Shape := ⟨2, ![1, 2]⟩
abbrev S32x2x16384 : Shape := ⟨3, ![32, 2, 16384]⟩
abbrev S32x16384 : Shape := ⟨2, ![32, 16384]⟩
abbrev S1x128 : Shape := ⟨2, ![1, 128]⟩
abbrev S32 : Shape := ⟨1, ![32]⟩
abbrev S32x1 : Shape := ⟨2, ![32, 1]⟩
abbrev S1 : Shape := ⟨1, ![1]⟩
abbrev S1x1 : Shape := ⟨2, ![1, 1]⟩
abbrev S_ : Shape := ⟨0, ![]⟩
abbrev S8388608 : Shape := ⟨1, ![8388608]⟩
abbrev S1600 : Shape := ⟨1, ![1600]⟩
abbrev S8388608x1 : Shape := ⟨2, ![8388608, 1]⟩
abbrev S32x50 : Shape := ⟨2, ![32, 50]⟩

abbrev nBuf : Space → Nat
  | .hbm => 100
  | .vmem => 11
  | .smem => 0
  | _ => 0

abbrev bufTy : (tb : Table) → Fin (tcTables nBuf tb) → BufTy
  | .hbm, ⟨0, _⟩ => ⟨S32x2x512x512, .f32⟩
  | .hbm, ⟨1, _⟩ => ⟨S32x2x512x512, .f32⟩
  | .hbm, ⟨2, _⟩ => ⟨S32x2x262144, .f32⟩
  | .hbm, ⟨3, _⟩ => ⟨S32x2x262144, .f32⟩
  | .hbm, ⟨4, _⟩ => ⟨S32x262144, .f32⟩
  | .hbm, ⟨5, _⟩ => ⟨S32x262144, .f32⟩
  | .hbm, ⟨6, _⟩ => ⟨S1x2, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x262144, .f32⟩
  | .hbm, ⟨15, _⟩ => ⟨S32x262144, .f32⟩
  | .hbm, ⟨16, _⟩ => ⟨S32x262144, .f32⟩
  | .hbm, ⟨17, _⟩ => ⟨S32x262144, .f32⟩
  | .hbm, ⟨18, _⟩ => ⟨S32x262144, .f32⟩
  | .hbm, ⟨19, _⟩ => ⟨S32x262144, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S32x262144, .i32⟩
  | .hbm, ⟨24, _⟩ => ⟨S32x262144, .i32⟩
  | .hbm, ⟨25, _⟩ => ⟨S_, .i32⟩
  | .hbm, ⟨26, _⟩ => ⟨S32x262144, .i32⟩
  | .hbm, ⟨27, _⟩ => ⟨S32x262144, .i32⟩
  | .hbm, ⟨28, _⟩ => ⟨S32, .i32⟩
  | .hbm, ⟨29, _⟩ => ⟨S32x1, .i32⟩
  | .hbm, ⟨30, _⟩ => ⟨S_, .i32⟩
  | .hbm, ⟨31, _⟩ => ⟨S32x1, .i32⟩
  | .hbm, ⟨32, _⟩ => ⟨S32x1, .i32⟩
  | .hbm, ⟨33, _⟩ => ⟨S32x262144, .i32⟩
  | .hbm, ⟨34, _⟩ => ⟨S32x262144, .i32⟩
  | .hbm, ⟨35, _⟩ => ⟨S8388608, .i32⟩
  | .hbm, ⟨36, _⟩ => ⟨S_, .f32⟩
  | .hbm, ⟨37, _⟩ => ⟨S8388608, .f32⟩
  | .hbm, ⟨38, _⟩ => ⟨S_, .f32⟩
  | .hbm, ⟨39, _⟩ => ⟨S1600, .f32⟩
  | .hbm, ⟨40, _⟩ => ⟨S8388608x1, .i32⟩
  | .hbm, ⟨41, _⟩ => ⟨S1600, .f32⟩
  | .hbm, ⟨42, _⟩ => ⟨S32x50, .f32⟩
  | .hbm, ⟨43, _⟩ => ⟨S_, .f32⟩
  | .hbm, ⟨44, _⟩ => ⟨S32x50, .f32⟩
  | .hbm, ⟨45, _⟩ => ⟨S32x50, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S32x262144, .f32⟩
  | .hbm, ⟨50, _⟩ => ⟨S32x262144, .f32⟩
  | .hbm, ⟨51, _⟩ => ⟨S32x262144, .f32⟩
  | .hbm, ⟨52, _⟩ => ⟨S32x262144, .f32⟩
  | .hbm, ⟨53, _⟩ => ⟨S32x262144, .f32⟩
  | .hbm, ⟨54, _⟩ => ⟨S32x262144, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S32x262144, .i32⟩
  | .hbm, ⟨59, _⟩ => ⟨S32x262144, .i32⟩
  | .hbm, ⟨60, _⟩ => ⟨S_, .i32⟩
  | .hbm, ⟨61, _⟩ => ⟨S32x262144, .i32⟩
  | .hbm, ⟨62, _⟩ => ⟨S32x262144, .i32⟩
  | .hbm, ⟨63, _⟩ => ⟨S32, .i32⟩
  | .hbm, ⟨64, _⟩ => ⟨S32x1, .i32⟩
  | .hbm, ⟨65, _⟩ => ⟨S_, .i32⟩
  | .hbm, ⟨66, _⟩ => ⟨S32x1, .i32⟩
  | .hbm, ⟨67, _⟩ => ⟨S32x1, .i32⟩
  | .hbm, ⟨68, _⟩ => ⟨S32x262144, .i32⟩
  | .hbm, ⟨69, _⟩ => ⟨S32x262144, .i32⟩
  | .hbm, ⟨70, _⟩ => ⟨S8388608, .i32⟩
  | .hbm, ⟨71, _⟩ => ⟨S_, .f32⟩
  | .hbm, ⟨72, _⟩ => ⟨S8388608, .f32⟩
  | .hbm, ⟨73, _⟩ => ⟨S_, .f32⟩
  | .hbm, ⟨74, _⟩ => ⟨S1600, .f32⟩
  | .hbm, ⟨75, _⟩ => ⟨S8388608x1, .i32⟩
  | .hbm, ⟨76, _⟩ => ⟨S1600, .f32⟩
  | .hbm, ⟨77, _⟩ => ⟨S32x50, .f32⟩
  | .hbm, ⟨78, _⟩ => ⟨S_, .f32⟩
  | .hbm, ⟨79, _⟩ => ⟨S32x50, .f32⟩
  | .hbm, ⟨80, _⟩ => ⟨S32x50, .f32⟩
  | .hbm, ⟨81, _⟩ => ⟨S_, .f32⟩
  | .hbm, ⟨82, _⟩ => ⟨S32, .f32⟩
  | .hbm, ⟨83, _⟩ => ⟨S32x1, .f32⟩
  | .hbm, ⟨84, _⟩ => ⟨S32x50, .f32⟩
  | .hbm, ⟨85, _⟩ => ⟨S32x50, .f32⟩
  | .hbm, ⟨86, _⟩ => ⟨S_, .f32⟩
  | .hbm, ⟨87, _⟩ => ⟨S32, .f32⟩
  | .hbm, ⟨88, _⟩ => ⟨S32x1, .f32⟩
  | .hbm, ⟨89, _⟩ => ⟨S32x50, .f32⟩
  | .hbm, ⟨90, _⟩ => ⟨S32x50, .f32⟩
  | .hbm, ⟨91, _⟩ => ⟨S32x50, .f32⟩
  | .hbm, ⟨92, _⟩ => ⟨S32x50, .f32⟩
  | .hbm, ⟨93, _⟩ => ⟨S32x50, .f32⟩
  | .hbm, ⟨94, _⟩ => ⟨S_, .f32⟩
  | .hbm, ⟨95, _⟩ => ⟨S32, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S32x2x16384, .f32⟩
  | .local _ .vmem, ⟨1, _⟩ => ⟨S32x2x16384, .f32⟩
  | .local _ .vmem, ⟨2, _⟩ => ⟨S32x2x16384, .f32⟩
  | .local _ .vmem, ⟨3, _⟩ => ⟨S32x2x16384, .f32⟩
  | .local _ .vmem, ⟨4, _⟩ => ⟨S32x16384, .f32⟩
  | .local _ .vmem, ⟨5, _⟩ => ⟨S32x16384, .f32⟩
  | .local _ .vmem, ⟨6, _⟩ => ⟨S32x16384, .f32⟩
  | .local _ .vmem, ⟨7, _⟩ => ⟨S32x16384, .f32⟩
  | .local _ .vmem, ⟨8, _⟩ => ⟨S1x2, .f32⟩
  | .local _ .vmem, ⟨9, _⟩ => ⟨S1x128, .f32⟩
  | .local _ .vmem, ⟨10, _⟩ => ⟨S1x128, .f32⟩
  | _, _ => ⟨S32x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_c_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_cst_15 : Ref sig .tc := ⟨.hbm, 96, rfl⟩
abbrev main_v65 : Ref sig .tc := ⟨.hbm, 97, rfl⟩
abbrev main_cst_16 : Ref sig .tc := ⟨.hbm, 98, rfl⟩
abbrev main_v66 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v51 : BitVec 1 := Scalar.cmpi .eq arg0 c15_i32
  let v52 : BitVec 32 := Scalar.extui v51
  let c0_i32_29 : BitVec 32 := 0#32
  let v53 : BitVec 1 := Scalar.cmpi .ne v52 c0_i32_29
  v53

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S32x2x512x512_S32x2x262144 : S32x2x512x512.ShapeCasts S32x2x262144
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S32x2x16384_S32x2x16384_0_0_0 : ∀ a, (![0, 0, 0] : Fin 3 → Nat) a + S32x2x16384.size a ≤ S32x2x16384.size a
  h_S32x2x16384 : 0 < S32x2x16384.numel
  shapeCasts_S32x2x16384_S32x2x16384 : S32x2x16384.ShapeCasts S32x2x16384
  reduces_S32x2x16384_S32x16384 : S32x2x16384.Reduces [1] S32x16384
  inb_S32x16384_S32x16384_0_0 : ∀ a, (![0, 0] : Fin 2 → Nat) a + S32x16384.size a ≤ S32x16384.size a
  h_S32x16384 : 0 < S32x16384.numel
  reduces_S32x16384_S32 : S32x16384.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  broadcasts_S1x1_S1x128 : S1x1.Broadcasts S1x128
  inb_S1x128_S1x1_0_0 : ∀ a, (![0, 0] : Fin 2 → Nat) a + S1x1.size a ≤ S1x128.size a
  h_S1x1 : 0 < S1x1.numel
  concatenates_S1x1_S1x1_S1x2_d1 : Shape.Concatenates [S1x1, S1x1] S1x2 1
  inb_S1x2_S1x2_0_0 : ∀ a, (![0, 0] : Fin 2 → Nat) a + S1x2.size a ≤ S1x2.size a
  h_S1x2 : 0 < S1x2.numel
  slices_S1x2_S1x1_0_0 : S1x2.Slices ![0, 0] S1x1
  shapeCasts_S1x1_S_ : S1x1.ShapeCasts S_
  slices_S1x2_S1x1_0_1 : S1x2.Slices ![0, 1] S1x1
  bcast_S_S32x262144 : S_.BroadcastsInDim S32x262144 (![] : Fin 0 → Fin S32x262144.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x262144_0_1 : S32x1.BroadcastsInDim S32x262144 (![0, 1] : Fin 2 → Fin S32x262144.rank)
  shapeCasts_S32x262144_S8388608 : S32x262144.ShapeCasts S8388608
  bcast_S_S8388608 : S_.BroadcastsInDim S8388608 (![] : Fin 0 → Fin S8388608.rank)
  bcast_S_S1600 : S_.BroadcastsInDim S1600 (![] : Fin 0 → Fin S1600.rank)
  bcast_S8388608_S8388608x1_0 : S8388608.BroadcastsInDim S8388608x1 (![0] : Fin 1 → Fin S8388608x1.rank)
  shapeCasts_S1600_S32x50 : S1600.ShapeCasts S32x50
  bcast_S_S32x50 : S_.BroadcastsInDim S32x50 (![] : Fin 0 → Fin S32x50.rank)
  reducesTo_S32x50_S32_d1 : S32x50.ReducesTo [1] S32
  h_S_ : 0 < S_.numel
  bcast_S32x1_S32x50_0_1 : S32x1.BroadcastsInDim S32x50 (![0, 1] : Fin 2 → Fin S32x50.rank)
  reducesTo_S32_S_d0 : S32.ReducesTo [0] S_
  scatter_S1600_S8388608x1_S8388608_n_0_0_1_wf : ScatterDims.WF S1600 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x16384.size a ≤ S32x2x262144.size a
  hwx0_0 : ∀ i : grid0.Coords, EltTy.bits .f32 = 32 ∨ (Rect.block (s := S32x2x262144) S32x2x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2x16384.size a ≤ S32x2x262144.size a
  hwx0_1 : ∀ i : grid0.Coords, EltTy.bits .f32 = 32 ∨ (Rect.block (s := S32x2x262144) S32x2x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S32x262144.size a
  hwx0_2 : ∀ i : grid0.Coords, EltTy.bits .f32 = 32 ∨ (Rect.block (s := S32x262144) S32x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16384.size a ≤ S32x262144.size a
  hwx0_3 : ∀ i : grid0.Coords, EltTy.bits .f32 = 32 ∨ (Rect.block (s := S32x262144) S32x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)

variable [Facts₀]

def scatter_S1600_S8388608x1_S8388608_n_0_0_1 : ScatterDims S1600 S8388608x1 S8388608 where
  updateWindowDims := []
  insertedWindowDims := [0]
  scatterDimsToOperandDims := [0]
  indexVectorDim := 1
  wf := scatter_S1600_S8388608x1_S8388608_n_0_0_1_wf

abbrev win0_0 : Pipeline.Window sig grid0 :=
  Pipeline.Window.ofSpec (Memref.whole main_v0) S32x2x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x2x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S32x16384.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S32x16384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2x512x512 : Shape := ⟨4, ![32, 2, 512, 512]⟩
abbrev S_ : Shape := ⟨0, ![]⟩
abbrev S32x512x512 : Shape := ⟨3, ![32, 512, 512]⟩
abbrev S32x262144 : Shape := ⟨2, ![32, 262144]⟩
abbrev S32 : Shape := ⟨1, ![32]⟩
abbrev S32x1 : Shape := ⟨2, ![32, 1]⟩
abbrev S8388608 : Shape := ⟨1, ![8388608]⟩
abbrev S1600 : Shape := ⟨1, ![1600]⟩
abbrev S8388608x1 : Shape := ⟨2, ![8388608, 1]⟩
abbrev S32x50 : Shape := ⟨2, ![32, 50]⟩

abbrev nBuf : Space → Nat
  | .hbm => 117
  | .vmem => 0
  | .smem => 0
  | _ => 0

abbrev bufTy : (tb : Table) → Fin (tcTables nBuf tb) → BufTy
  | .hbm, ⟨0, _⟩ => ⟨S32x2x512x512, .f32⟩
  | .hbm, ⟨1, _⟩ => ⟨S32x2x512x512, .f32⟩
  | .hbm, ⟨2, _⟩ => ⟨S32x2x512x512, .f32⟩
  | .hbm, ⟨3, _⟩ => ⟨S_, .f32⟩
  | .hbm, ⟨4, _⟩ => ⟨S32x512x512, .f32⟩
  | .hbm, ⟨5, _⟩ => ⟨S32x512x512, .f32⟩
  | .hbm, ⟨6, _⟩ => ⟨S_, .f32⟩
  | .hbm, ⟨7, _⟩ => ⟨S32x512x512, .f32⟩
  | .hbm, ⟨8, _⟩ => ⟨S32x512x512, .f32⟩
  | .hbm, ⟨9, _⟩ => ⟨S32x262144, .f32⟩
  | .hbm, ⟨10, _⟩ => ⟨S32x2x512x512, .f32⟩
  | .hbm, ⟨11, _⟩ => ⟨S_, .f32⟩
  | .hbm, ⟨12, _⟩ => ⟨S32x512x512, .f32⟩
  | .hbm, ⟨13, _⟩ => ⟨S32x512x512, .f32⟩
  | .hbm, ⟨14, _⟩ => ⟨S_, .f32⟩
  | .hbm, ⟨15, _⟩ => ⟨S32x512x512, .f32⟩
  | .hbm, ⟨16, _⟩ => ⟨S32x512x512, .f32⟩
  | .hbm, ⟨17, _⟩ => ⟨S32x262144, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32x262144, .f32⟩
  | .hbm, ⟨32, _⟩ => ⟨S32x262144, .f32⟩
  | .hbm, ⟨33, _⟩ => ⟨S32x262144, .f32⟩
  | .hbm, ⟨34, _⟩ => ⟨S32x262144, .f32⟩
  | .hbm, ⟨35, _⟩ => ⟨S32x262144, .f32⟩
  | .hbm, ⟨36, _⟩ => ⟨S32x262144, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S32x262144, .i32⟩
  | .hbm, ⟨41, _⟩ => ⟨S32x262144, .i32⟩
  | .hbm, ⟨42, _⟩ => ⟨S_, .i32⟩
  | .hbm, ⟨43, _⟩ => ⟨S32x262144, .i32⟩
  | .hbm, ⟨44, _⟩ => ⟨S32x262144, .i32⟩
  | .hbm, ⟨45, _⟩ => ⟨S32, .i32⟩
  | .hbm, ⟨46, _⟩ => ⟨S32x1, .i32⟩
  | .hbm, ⟨47, _⟩ => ⟨S_, .i32⟩
  | .hbm, ⟨48, _⟩ => ⟨S32x1, .i32⟩
  | .hbm, ⟨49, _⟩ => ⟨S32x1, .i32⟩
  | .hbm, ⟨50, _⟩ => ⟨S32x262144, .i32⟩
  | .hbm, ⟨51, _⟩ => ⟨S32x262144, .i32⟩
  | .hbm, ⟨52, _⟩ => ⟨S8388608, .i32⟩
  | .hbm, ⟨53, _⟩ => ⟨S_, .f32⟩
  | .hbm, ⟨54, _⟩ => ⟨S8388608, .f32⟩
  | .hbm, ⟨55, _⟩ => ⟨S_, .f32⟩
  | .hbm, ⟨56, _⟩ => ⟨S1600, .f32⟩
  | .hbm, ⟨57, _⟩ => ⟨S8388608x1, .i32⟩
  | .hbm, ⟨58, _⟩ => ⟨S1600, .f32⟩
  | .hbm, ⟨59, _⟩ => ⟨S32x50, .f32⟩
  | .hbm, ⟨60, _⟩ => ⟨S_, .f32⟩
  | .hbm, ⟨61, _⟩ => ⟨S32x50, .f32⟩
  | .hbm, ⟨62, _⟩ => ⟨S32x50, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S32x262144, .f32⟩
  | .hbm, ⟨67, _⟩ => ⟨S32x262144, .f32⟩
  | .hbm, ⟨68, _⟩ => ⟨S32x262144, .f32⟩
  | .hbm, ⟨69, _⟩ => ⟨S32x262144, .f32⟩
  | .hbm, ⟨70, _⟩ => ⟨S32x262144, .f32⟩
  | .hbm, ⟨71, _⟩ => ⟨S32x262144, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S32x262144, .i32⟩
  | .hbm, ⟨76, _⟩ => ⟨S32x262144, .i32⟩
  | .hbm, ⟨77, _⟩ => ⟨S_, .i32⟩
  | .hbm, ⟨78, _⟩ => ⟨S32x262144, .i32⟩
  | .hbm, ⟨79, _⟩ => ⟨S32x262144, .i32⟩
  | .hbm, ⟨80, _⟩ => ⟨S32, .i32⟩
  | .hbm, ⟨81, _⟩ => ⟨S32x1, .i32⟩
  | .hbm, ⟨82, _⟩ => ⟨S_, .i32⟩
  | .hbm, ⟨83, _⟩ => ⟨S32x1, .i32⟩
  | .hbm, ⟨84, _⟩ => ⟨S32x1, .i32⟩
  | .hbm, ⟨85, _⟩ => ⟨S32x262144, .i32⟩
  | .hbm, ⟨86, _⟩ => ⟨S32x262144, .i32⟩
  | .hbm, ⟨87, _⟩ => ⟨S8388608, .i32⟩
  | .hbm, ⟨88, _⟩ => ⟨S_, .f32⟩
  | .hbm, ⟨89, _⟩ => ⟨S8388608, .f32⟩
  | .hbm, ⟨90, _⟩ => ⟨S_, .f32⟩
  | .hbm, ⟨91, _⟩ => ⟨S1600, .f32⟩
  | .hbm, ⟨92, _⟩ => ⟨S8388608x1, .i32⟩
  | .hbm, ⟨93, _⟩ => ⟨S1600, .f32⟩
  | .hbm, ⟨94, _⟩ => ⟨S32x50, .f32⟩
  | .hbm, ⟨95, _⟩ => ⟨S_, .f32⟩
  | .hbm, ⟨96, _⟩ => ⟨S32x50, .f32⟩
  | .hbm, ⟨97, _⟩ => ⟨S32x50, .f32⟩
  | .hbm, ⟨98, _⟩ => ⟨S_, .f32⟩
  | .hbm, ⟨99, _⟩ => ⟨S32, .f32⟩
  | .hbm, ⟨100, _⟩ => ⟨S32x1, .f32⟩
  | .hbm, ⟨101, _⟩ => ⟨S32x50, .f32⟩
  | .hbm, ⟨102, _⟩ => ⟨S32x50, .f32⟩
  | .hbm, ⟨103, _⟩ => ⟨S_, .f32⟩
  | .hbm, ⟨104, _⟩ => ⟨S32, .f32⟩
  | .hbm, ⟨105, _⟩ => ⟨S32x1, .f32⟩
  | .hbm, ⟨106, _⟩ => ⟨S32x50, .f32⟩
  | .hbm, ⟨107, _⟩ => ⟨S32x50, .f32⟩
  | .hbm, ⟨108, _⟩ => ⟨S32x50, .f32⟩
  | .hbm, ⟨109, _⟩ => ⟨S32x50, .f32⟩
  | .hbm, ⟨110, _⟩ => ⟨S32x50, .f32⟩
  | .hbm, ⟨111, _⟩ => ⟨S_, .f32⟩
  | .hbm, ⟨112, _⟩ => ⟨S32, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S32x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_c_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_c_15 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_16 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_17 : Ref sig .tc := ⟨.hbm, 88, rfl⟩
abbrev main_v57 : Ref sig .tc := ⟨.hbm, 89, rfl⟩
abbrev main_cst_18 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_19 : Ref sig .tc := ⟨.hbm, 95, rfl⟩
abbrev main_v62 : Ref sig .tc := ⟨.hbm, 96, rfl⟩
abbrev main_v63 : Ref sig .tc := ⟨.hbm, 97, rfl⟩
abbrev main_cst_20 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_21 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_22 : Ref sig .tc := ⟨.hbm, 111, rfl⟩
abbrev main_v75 : Ref sig .tc := ⟨.hbm, 112, rfl⟩
abbrev main_cst_23 : Ref sig .tc := ⟨.hbm, 113, rfl⟩
abbrev main_v76 : Ref sig .tc := ⟨.hbm, 114, rfl⟩
abbrev main_cst_24 : Ref sig .tc := ⟨.hbm, 115, rfl⟩
abbrev main_v77 : Ref sig .tc := ⟨.hbm, 116, rfl⟩

abbrev nD : Nat := 1
abbrev τ : Topo := Topo.v7x

variable {F : FTy → Type} [FloatOps F]

class Facts₀ : Prop where
  reducesTo_S32x2x512x512_S32x512x512_d1 : S32x2x512x512.ReducesTo [1] S32x512x512
  h_S_ : 0 < S_.numel
  bcast_S_S32x512x512 : S_.BroadcastsInDim S32x512x512 (![] : Fin 0 → Fin S32x512x512.rank)
  shapeCasts_S32x512x512_S32x262144 : S32x512x512.ShapeCasts S32x262144
  reducesTo_S32x262144_S_d0_1 : S32x262144.ReducesTo [0, 1] S_
  bcast_S_S32x262144 : S_.BroadcastsInDim S32x262144 (![] : Fin 0 → Fin S32x262144.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x262144_0_1 : S32x1.BroadcastsInDim S32x262144 (![0, 1] : Fin 2 → Fin S32x262144.rank)
  shapeCasts_S32x262144_S8388608 : S32x262144.ShapeCasts S8388608
  bcast_S_S8388608 : S_.BroadcastsInDim S8388608 (![] : Fin 0 → Fin S8388608.rank)
  bcast_S_S1600 : S_.BroadcastsInDim S1600 (![] : Fin 0 → Fin S1600.rank)
  bcast_S8388608_S8388608x1_0 : S8388608.BroadcastsInDim S8388608x1 (![0] : Fin 1 → Fin S8388608x1.rank)
  shapeCasts_S1600_S32x50 : S1600.ShapeCasts S32x50
  bcast_S_S32x50 : S_.BroadcastsInDim S32x50 (![] : Fin 0 → Fin S32x50.rank)
  reducesTo_S32x50_S32_d1 : S32x50.ReducesTo [1] S32
  bcast_S32x1_S32x50_0_1 : S32x1.BroadcastsInDim S32x50 (![0, 1] : Fin 2 → Fin S32x50.rank)
  reducesTo_S32_S_d0 : S32.ReducesTo [0] S_
  scatter_S1600_S8388608x1_S8388608_n_0_0_1_wf : ScatterDims.WF S1600 S8388608x1 S8388608 [] [0] [0] 1

variable [Facts₀]

def scatter_S1600_S8388608x1_S8388608_n_0_0_1 : ScatterDims S1600 S8388608x1 S8388608 where
  updateWindowDims := []
  insertedWindowDims := [0]
  scatterDimsToOperandDims := [0]
  indexVectorDim := 1
  wf := scatter_S1600_S8388608x1_S8388608_n_0_0_1_wf

class Facts : Prop extends Facts₀ where

variable [Facts]
-- ==== Proof.BitsShared.lean ====
import proofs.«158077_j41790031790570_1_alg».proof.Proof.Gen.Kernel.Launch
import proofs.«158077_j41790031790570_1_alg».proof.Proof.Gen.Kernel.Skeleton
import proofs.«158077_j41790031790570_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one kernel region

Two reshapes come before the region; everything after it is host arithmetic on the region's three results. -/

/-- What core `c`'s buffers hold when the region is entered: the launch contents after the two reshapes. -/
abbrev V0 (c : Dev nD) : Valuation τ sig (Elt F) := StableHlo.after (List.flatten [hostOps0]) (fun b => m (c, b))
/-- The same, read at one reference. -/
abbrev V (c : Dev nD) (b : Ref sig .tc) : Buf (Elt F) ((c : Thread nD τ).loc b) := V0 m c (Proc.devRef .tc b)

/-- The five stretches of host operations that follow the region, in order. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the reshapes, the region, and then the later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later operation touches only unscoped buffers of the core. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None of them allocates. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No operation of this stretch writes one of the region's five arrays: each writes its own result only. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation of this stretch writes one of the region's five arrays: each writes its own result only. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation of this stretch writes one of the region's five arrays: each writes its own result only. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation of this stretch writes one of the region's five arrays: each writes its own result only. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation of this stretch writes one of the region's five arrays: each writes its own result only. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact hostOps1_keeps op hop
  · exact hostOps1_1_keeps op hop
  · exact hostOps1_2_keeps op hop
  · exact hostOps1_3_keeps op hop
  · exact hostOps1_4_keeps op hop

/-- The reshapes write fresh buffers, so the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes argument 0, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- No later operation writes argument 1, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [tailOps, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## Blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whenever the body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whenever the body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- From a run whose post names every buffer's final contents to the frame statement: both arguments bypass the region
    and no later operation writes them. -/
theorem frame_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's two branches

The first branch resets the two running extrema and is taken at the first grid point only; the second writes them out
and is taken at the last grid point only. -/

/-- The reset branch's condition, from the grid coordinate. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The write-out branch's condition. -/
abbrev atLast (i : grid0.Coords) : Prop := k0_cond2 i = 1#1
theorem atLast_iff : ∀ t : Fin cfg0.N, atLast (grid0.coords t) ↔ t.val = 15 :=
  (by decide +kernel : ∀ t : Fin grid0.N, atLast (grid0.coords t) ↔ t.val = 15)

/-! ## Which windows are stored into where -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last point the extrema window is not stored into, -/
theorem idle4 : ∀ t : Fin cfg0.N, ¬atLast (grid0.coords t) → cfg0.idle 4 (grid0.coords t) = true := by decide +kernel
/-- nor written back; -/
theorem noFlush4 : ∀ t : Fin cfg0.N, ¬atLast (grid0.coords t) → (cfg0.win 4).flush t = false := by decide +kernel
/-- at the last point it is stored into. -/
theorem live4 : ∀ t : Fin cfg0.N, atLast (grid0.coords t) → cfg0.idle 4 (grid0.coords t) = false := by decide +kernel

/-! ## The memrefs the body is called with -/

abbrev ms0 (t : Fin cfg0.N) : Memref sig .tc .vmem S32x2x16384 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S32x2x16384 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S32x16384 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S32x16384 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S1x2 .f32 := win0_4.stage (cfg0.slots t 4)
abbrev hs4 (t : Fin cfg0.N) : (ms4 t).IsWhole := Facts₀.hstage0_4 ((cfg0.slots t 4).cast Facts₀.nbuf0_4)
/-- The running minimum's and the running maximum's scratch rows. -/
abbrev scMin : Memref sig .tc .vmem S1x128 .f32 := Memref.whole cc0_scratch0
abbrev scMax : Memref sig .tc .vmem S1x128 .f32 := Memref.whole cc0_scratch1
/-- One view per output shape and per scratch row, through which contents are stated. -/
abbrev VO2 : View sig .tc .vmem S32x16384 .f32 := (Memref.whole cc0_stg2_0 : Memref sig .tc .vmem S32x16384 .f32).view
abbrev VO3 : View sig .tc .vmem S32x16384 .f32 := (Memref.whole cc0_stg3_0 : Memref sig .tc .vmem S32x16384 .f32).view
abbrev VO4 : View sig .tc .vmem S1x2 .f32 := (Memref.whole cc0_stg4_0 : Memref sig .tc .vmem S1x2 .f32).view
abbrev VSmin : View sig .tc .vmem S1x128 .f32 := scMin.view
abbrev VSmax : View sig .tc .vmem S1x128 .f32 := scMax.view

/-- What the launch lends the region besides the windows: the two scratch rows at some contents, and the random-number generator's register. -/
theorem PhiA_eq (c : Dev nD) :
    (Pipeline.ΦA spec0 c : sProp 𝕄)
      = iprop(iprop((∃ d, owns (c : Thread nD τ) scMin fullShare d) ∗ (∃ d, owns (c : Thread nD τ) scMax fullShare d)) ∗ (∃ r, prngReg c r)) := by
  unfold Pipeline.ΦA; rw [scopedRest0_eq]; simp only [scMin, scMax, owns_whole]; try rfl

end Cert.Kernel.Hand

end
-- ==== Proof.BitsRunFirst.lean ====
import proofs.«158077_j41790031790570_1_alg».proof.Proof.BitsShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first grid point: the running extrema are reset before they are updated, so whatever the two scratch rows held is overwritten; the extrema window is left as found. Given the two input blocks `x0`, `x1` in their staging buffers, the body terminates without
    a fault, leaves the inputs as they were, and leaves in every buffer it stores into a list of written pieces; the lists
    are found by running the body symbolically, and are the first components of this value. -/
noncomputable def runFirst (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i)
    (x0 x1 : Vec F S32x2x16384 .f32) :
    Σ' (L3 : List (View.Piece (Elt F) S32x16384 .f32)) (L4 : List (View.Piece (Elt F) S32x16384 .f32)) (LS0 : List (View.Piece (Elt F) S1x128 .f32)), { LS1 : List (View.Piece (Elt F) S1x128 .f32) //
      ∀ (xi5 : Vec F S1x2 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi5 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ owns (c : Thread nD τ) arg5 fullShare xi5 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__magnitude_kernel i arg1 harg1 arg2 harg2 arg3 harg3 arg4 harg4 arg5 harg5 arg6 harg6 arg7 harg7) K } := by
  refine ⟨?_, ?_, ?_, ?_, fun xi5 E K => ?run⟩
  case run =>
    simp only [cc0__magnitude_kernel_eq_skeleton]; unfold cc0__magnitude_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg5.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]
    · iexists _; isplitr; · ipureintro; exact harg5.read_unread _
      iexact H5
    isplitl [HS0]; · iexists _; iexact HS0
    iexists _; iexact HS1

end Cert.Kernel.Hand

end
-- ==== Proof.BitsRunMid.lean ====
import proofs.«158077_j41790031790570_1_alg».proof.Proof.BitsRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point that is neither first nor last: the running extrema are updated from what the point before left; the extrema window is left as found. Given the two input blocks `x0`, `x1` in their staging buffers, the body terminates without
    a fault, leaves the inputs as they were, and leaves in every buffer it stores into a list of written pieces; the lists
    are found by running the body symbolically, and are the first components of this value. -/
noncomputable def runMid (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i)
    (x0 x1 : Vec F S32x2x16384 .f32) (xs0 xs1 : Vec F S1x128 .f32) :
    Σ' (L3 : List (View.Piece (Elt F) S32x16384 .f32)) (L4 : List (View.Piece (Elt F) S32x16384 .f32)) (LS0 : List (View.Piece (Elt F) S1x128 .f32)), { LS1 : List (View.Piece (Elt F) S1x128 .f32) //
      ∀ (xi5 : Vec F S1x2 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi5 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ owns (c : Thread nD τ) arg5 fullShare xi5 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__magnitude_kernel i arg1 harg1 arg2 harg2 arg3 harg3 arg4 harg4 arg5 harg5 arg6 harg6 arg7 harg7) K } := by
  refine ⟨?_, ?_, ?_, ?_, fun xi5 E K => ?run⟩
  case run =>
    simp only [cc0__magnitude_kernel_eq_skeleton]; unfold cc0__magnitude_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg5.eq_unread hf5; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]
    · iexists _; isplitr; · ipureintro; exact harg5.read_unread _
      iexact H5
    isplitl [HS0]; · iexists _; iexact HS0
    iexists _; iexact HS1

end Cert.Kernel.Hand

end
-- ==== Proof.BitsRunLast.lean ====
import proofs.«158077_j41790031790570_1_alg».proof.Proof.BitsRunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last grid point: the running extrema are updated from what the point before left, and their first lanes are written to the extrema window. Given the two input blocks `x0`, `x1` in their staging buffers, the body terminates without
    a fault, leaves the inputs as they were, and leaves in every buffer it stores into a list of written pieces; the lists
    are found by running the body symbolically, and are the first components of this value. -/
noncomputable def runLast (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i)
    (x0 x1 : Vec F S32x2x16384 .f32) (xs0 xs1 : Vec F S1x128 .f32) :
    Σ' (L3 : List (View.Piece (Elt F) S32x16384 .f32)) (L4 : List (View.Piece (Elt F) S32x16384 .f32)) (L5 : List (View.Piece (Elt F) S1x2 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__magnitude_kernel i arg1 harg1 arg2 harg2 arg3 harg3 arg4 harg4 arg5 harg5 arg6 harg6 arg7 harg7) K } := by
  refine ⟨?_, ?_, ?_, ?_, ?_, fun E K => ?run⟩
  case run =>
    simp only [cc0__magnitude_kernel_eq_skeleton]; unfold cc0__magnitude_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.BitsFrame.lean ====
import proofs.«158077_j41790031790570_1_alg».proof.Proof.BitsRunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces the body writes into the first magnitude window's buffer at such a point tile it. -/
theorem coverFirstA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) (y : S32x16384.Idx) :
    ∃ pc ∈ (runFirst c i arg1 harg1 arg2 harg2 arg3 harg3 arg4 harg4 arg5 harg5 arg6 harg6 arg7 harg7 hc0 hc1 x0 x1).1, y ∈ pc.1.set :=
  View.cover_of_tiledL (runFirst c i arg1 harg1 arg2 harg2 arg3 harg3 arg4 harg4 arg5 harg5 arg6 harg6 arg7 harg7 hc0 hc1 x0 x1).1 S32x16384.size (by sl_kernel_rfl) y
/-- What the body leaves in the first magnitude window's buffer at such a point: its pieces read back. -/
def outFirstA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) : Vec F S32x16384 .f32 :=
  VO2.read (Elt F) (VO2.writes (Elt F) VO2.junk (runFirst c i arg1 harg1 arg2 harg2 arg3 harg3 arg4 harg4 arg5 harg5 arg6 harg6 arg7 harg7 hc0 hc1 x0 x1).1)
/-- The pieces the body writes into the second magnitude window's buffer at such a point tile it. -/
theorem coverFirstB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) (y : S32x16384.Idx) :
    ∃ pc ∈ (runFirst c i arg1 harg1 arg2 harg2 arg3 harg3 arg4 harg4 arg5 harg5 arg6 harg6 arg7 harg7 hc0 hc1 x0 x1).2.1, y ∈ pc.1.set :=
  View.cover_of_tiledL (runFirst c i arg1 harg1 arg2 harg2 arg3 harg3 arg4 harg4 arg5 harg5 arg6 harg6 arg7 harg7 hc0 hc1 x0 x1).2.1 S32x16384.size (by sl_kernel_rfl) y
/-- What the body leaves in the second magnitude window's buffer at such a point: its pieces read back. -/
def outFirstB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) : Vec F S32x16384 .f32 :=
  VO3.read (Elt F) (VO3.writes (Elt F) VO3.junk (runFirst c i arg1 harg1 arg2 harg2 arg3 harg3 arg4 harg4 arg5 harg5 arg6 harg6 arg7 harg7 hc0 hc1 x0 x1).2.1)
/-- The pieces the body writes into the running-minimum row at such a point tile it. -/
theorem coverFirstSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) (y : S1x128.Idx) :
    ∃ pc ∈ (runFirst c i arg1 harg1 arg2 harg2 arg3 harg3 arg4 harg4 arg5 harg5 arg6 harg6 arg7 harg7 hc0 hc1 x0 x1).2.2.1, y ∈ pc.1.set :=
  View.cover_of_tiledL (runFirst c i arg1 harg1 arg2 harg2 arg3 harg3 arg4 harg4 arg5 harg5 arg6 harg6 arg7 harg7 hc0 hc1 x0 x1).2.2.1 S1x128.size (by sl_kernel_rfl) y
/-- What the body leaves in the running-minimum row at such a point: its pieces read back. -/
def outFirstSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) : Vec F S1x128 .f32 :=
  VSmin.read (Elt F) (VSmin.writes (Elt F) VSmin.junk (runFirst c i arg1 harg1 arg2 harg2 arg3 harg3 arg4 harg4 arg5 harg5 arg6 harg6 arg7 harg7 hc0 hc1 x0 x1).2.2.1)
/-- The pieces the body writes into the running-maximum row at such a point tile it. -/
theorem coverFirstSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) (y : S1x128.Idx) :
    ∃ pc ∈ (runFirst c i arg1 harg1 arg2 harg2 arg3 harg3 arg4 harg4 arg5 harg5 arg6 harg6 arg7 harg7 hc0 hc1 x0 x1).2.2.2.1, y ∈ pc.1.set :=
  View.cover_of_tiledL (runFirst c i arg1 harg1 arg2 harg2 arg3 harg3 arg4 harg4 arg5 harg5 arg6 harg6 arg7 harg7 hc0 hc1 x0 x1).2.2.2.1 S1x128.size (by sl_kernel_rfl) y
/-- What the body leaves in the running-maximum row at such a point: its pieces read back. -/
def outFirstSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) : Vec F S1x128 .f32 :=
  VSmax.read (Elt F) (VSmax.writes (Elt F) VSmax.junk (runFirst c i arg1 harg1 arg2 harg2 arg3 harg3 arg4 harg4 arg5 harg5 arg6 harg6 arg7 harg7 hc0 hc1 x0 x1).2.2.2.1)

/-- The pieces the body writes into the first magnitude window's buffer at such a point tile it. -/
theorem coverMidA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) (y : S32x16384.Idx) :
    ∃ pc ∈ (runMid c i arg1 harg1 arg2 harg2 arg3 harg3 arg4 harg4 arg5 harg5 arg6 harg6 arg7 harg7 hc0 hc1 x0 x1 xs0 xs1).1, y ∈ pc.1.set :=
  View.cover_of_tiledL (runMid c i arg1 harg1 arg2 harg2 arg3 harg3 arg4 harg4 arg5 harg5 arg6 harg6 arg7 harg7 hc0 hc1 x0 x1 xs0 xs1).1 S32x16384.size (by sl_kernel_rfl) y
/-- What the body leaves in the first magnitude window's buffer at such a point: its pieces read back. -/
def outMidA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) : Vec F S32x16384 .f32 :=
  VO2.read (Elt F) (VO2.writes (Elt F) VO2.junk (runMid c i arg1 harg1 arg2 harg2 arg3 harg3 arg4 harg4 arg5 harg5 arg6 harg6 arg7 harg7 hc0 hc1 x0 x1 xs0 xs1).1)
/-- The pieces the body writes into the second magnitude window's buffer at such a point tile it. -/
theorem coverMidB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) (y : S32x16384.Idx) :
    ∃ pc ∈ (runMid c i arg1 harg1 arg2 harg2 arg3 harg3 arg4 harg4 arg5 harg5 arg6 harg6 arg7 harg7 hc0 hc1 x0 x1 xs0 xs1).2.1, y ∈ pc.1.set :=
  View.cover_of_tiledL (runMid c i arg1 harg1 arg2 harg2 arg3 harg3 arg4 harg4 arg5 harg5 arg6 harg6 arg7 harg7 hc0 hc1 x0 x1 xs0 xs1).2.1 S32x16384.size (by sl_kernel_rfl) y
/-- What the body leaves in the second magnitude window's buffer at such a point: its pieces read back. -/
def outMidB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) : Vec F S32x16384 .f32 :=
  VO3.read (Elt F) (VO3.writes (Elt F) VO3.junk (runMid c i arg1 harg1 arg2 harg2 arg3 harg3 arg4 harg4 arg5 harg5 arg6 harg6 arg7 harg7 hc0 hc1 x0 x1 xs0 xs1).2.1)
/-- The pieces the body writes into the running-minimum row at such a point tile it. -/
theorem coverMidSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) (y : S1x128.Idx) :
    ∃ pc ∈ (runMid c i arg1 harg1 arg2 harg2 arg3 harg3 arg4 harg4 arg5 harg5 arg6 harg6 arg7 harg7 hc0 hc1 x0 x1 xs0 xs1).2.2.1, y ∈ pc.1.set :=
  View.cover_of_tiledL (runMid c i arg1 harg1 arg2 harg2 arg3 harg3 arg4 harg4 arg5 harg5 arg6 harg6 arg7 harg7 hc0 hc1 x0 x1 xs0 xs1).2.2.1 S1x128.size (by sl_kernel_rfl) y
/-- What the body leaves in the running-minimum row at such a point: its pieces read back. -/
def outMidSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) : Vec F S1x128 .f32 :=
  VSmin.read (Elt F) (VSmin.writes (Elt F) VSmin.junk (runMid c i arg1 harg1 arg2 harg2 arg3 harg3 arg4 harg4 arg5 harg5 arg6 harg6 arg7 harg7 hc0 hc1 x0 x1 xs0 xs1).2.2.1)
/-- The pieces the body writes into the running-maximum row at such a point tile it. -/
theorem coverMidSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) (y : S1x128.Idx) :
    ∃ pc ∈ (runMid c i arg1 harg1 arg2 harg2 arg3 harg3 arg4 harg4 arg5 harg5 arg6 harg6 arg7 harg7 hc0 hc1 x0 x1 xs0 xs1).2.2.2.1, y ∈ pc.1.set :=
  View.cover_of_tiledL (runMid c i arg1 harg1 arg2 harg2 arg3 harg3 arg4 harg4 arg5 harg5 arg6 harg6 arg7 harg7 hc0 hc1 x0 x1 xs0 xs1).2.2.2.1 S1x128.size (by sl_kernel_rfl) y
/-- What the body leaves in the running-maximum row at such a point: its pieces read back. -/
def outMidSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) : Vec F S1x128 .f32 :=
  VSmax.read (Elt F) (VSmax.writes (Elt F) VSmax.junk (runMid c i arg1 harg1 arg2 harg2 arg3 harg3 arg4 harg4 arg5 harg5 arg6 harg6 arg7 harg7 hc0 hc1 x0 x1 xs0 xs1).2.2.2.1)

/-- The pieces the body writes into the first magnitude window's buffer at such a point tile it. -/
theorem coverLastA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S32x16384.Idx) :
    ∃ pc ∈ (runLast c i arg1 harg1 arg2 harg2 arg3 harg3 arg4 harg4 arg5 harg5 arg6 harg6 arg7 harg7 hc0 hc1 x0 x1 xs0 xs1).1, y ∈ pc.1.set :=
  View.cover_of_tiledL (runLast c i arg1 harg1 arg2 harg2 arg3 harg3 arg4 harg4 arg5 harg5 arg6 harg6 arg7 harg7 hc0 hc1 x0 x1 xs0 xs1).1 S32x16384.size (by sl_kernel_rfl) y
/-- What the body leaves in the first magnitude window's buffer at such a point: its pieces read back. -/
def outLastA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S32x16384 .f32 :=
  VO2.read (Elt F) (VO2.writes (Elt F) VO2.junk (runLast c i arg1 harg1 arg2 harg2 arg3 harg3 arg4 harg4 arg5 harg5 arg6 harg6 arg7 harg7 hc0 hc1 x0 x1 xs0 xs1).1)
/-- The pieces the body writes into the second magnitude window's buffer at such a point tile it. -/
theorem coverLastB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S32x16384.Idx) :
    ∃ pc ∈ (runLast c i arg1 harg1 arg2 harg2 arg3 harg3 arg4 harg4 arg5 harg5 arg6 harg6 arg7 harg7 hc0 hc1 x0 x1 xs0 xs1).2.1, y ∈ pc.1.set :=
  View.cover_of_tiledL (runLast c i arg1 harg1 arg2 harg2 arg3 harg3 arg4 harg4 arg5 harg5 arg6 harg6 arg7 harg7 hc0 hc1 x0 x1 xs0 xs1).2.1 S32x16384.size (by sl_kernel_rfl) y
/-- What the body leaves in the second magnitude window's buffer at such a point: its pieces read back. -/
def outLastB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S32x16384 .f32 :=
  VO3.read (Elt F) (VO3.writes (Elt F) VO3.junk (runLast c i arg1 harg1 arg2 harg2 arg3 harg3 arg4 harg4 arg5 harg5 arg6 harg6 arg7 harg7 hc0 hc1 x0 x1 xs0 xs1).2.1)
/-- The pieces the body writes into the extrema window's buffer at such a point tile it. -/
theorem coverLastE (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S1x2.Idx) :
    ∃ pc ∈ (runLast c i arg1 harg1 arg2 harg2 arg3 harg3 arg4 harg4 arg5 harg5 arg6 harg6 arg7 harg7 hc0 hc1 x0 x1 xs0 xs1).2.2.1, y ∈ pc.1.set :=
  View.cover_of_tiledL (runLast c i arg1 harg1 arg2 harg2 arg3 harg3 arg4 harg4 arg5 harg5 arg6 harg6 arg7 harg7 hc0 hc1 x0 x1 xs0 xs1).2.2.1 S1x2.size (by sl_kernel_rfl) y
/-- What the body leaves in the extrema window's buffer at such a point: its pieces read back. -/
def outLastE (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S1x2 .f32 :=
  VO4.read (Elt F) (VO4.writes (Elt F) VO4.junk (runLast c i arg1 harg1 arg2 harg2 arg3 harg3 arg4 harg4 arg5 harg5 arg6 harg6 arg7 harg7 hc0 hc1 x0 x1 xs0 xs1).2.2.1)
/-- The pieces the body writes into the running-minimum row at such a point tile it. -/
theorem coverLastSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S1x128.Idx) :
    ∃ pc ∈ (runLast c i arg1 harg1 arg2 harg2 arg3 harg3 arg4 harg4 arg5 harg5 arg6 harg6 arg7 harg7 hc0 hc1 x0 x1 xs0 xs1).2.2.2.1, y ∈ pc.1.set :=
  View.cover_of_tiledL (runLast c i arg1 harg1 arg2 harg2 arg3 harg3 arg4 harg4 arg5 harg5 arg6 harg6 arg7 harg7 hc0 hc1 x0 x1 xs0 xs1).2.2.2.1 S1x128.size (by sl_kernel_rfl) y
/-- What the body leaves in the running-minimum row at such a point: its pieces read back. -/
def outLastSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S1x128 .f32 :=
  VSmin.read (Elt F) (VSmin.writes (Elt F) VSmin.junk (runLast c i arg1 harg1 arg2 harg2 arg3 harg3 arg4 harg4 arg5 harg5 arg6 harg6 arg7 harg7 hc0 hc1 x0 x1 xs0 xs1).2.2.2.1)
/-- The pieces the body writes into the running-maximum row at such a point tile it. -/
theorem coverLastSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S1x128.Idx) :
    ∃ pc ∈ (runLast c i arg1 harg1 arg2 harg2 arg3 harg3 arg4 harg4 arg5 harg5 arg6 harg6 arg7 harg7 hc0 hc1 x0 x1 xs0 xs1).2.2.2.2.1, y ∈ pc.1.set :=
  View.cover_of_tiledL (runLast c i arg1 harg1 arg2 harg2 arg3 harg3 arg4 harg4 arg5 harg5 arg6 harg6 arg7 harg7 hc0 hc1 x0 x1 xs0 xs1).2.2.2.2.1 S1x128.size (by sl_kernel_rfl) y
/-- What the body leaves in the running-maximum row at such a point: its pieces read back. -/
def outLastSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S1x128 .f32 :=
  VSmax.read (Elt F) (VSmax.writes (Elt F) VSmax.junk (runLast c i arg1 harg1 arg2 harg2 arg3 harg3 arg4 harg4 arg5 harg5 arg6 harg6 arg7 harg7 hc0 hc1 x0 x1 xs0 xs1).2.2.2.2.1)

/-! ## Point by point -/

/-- What the three outputs' buffers and the two scratch rows hold after the body at the first point (the extrema window is not stored into: a placeholder stands for it, which nothing reads). -/
def stepFirst (c : Dev nD) (t : Fin cfg0.N) (h0 : t.val = 0) (h1 : ¬t.val = 15) : (Vec F S32x16384 .f32 × Vec F S32x16384 .f32 × Vec F S1x2 .f32 × Vec F S1x128 .f32 × Vec F S1x128 .f32) :=
  (outFirstA c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t), outFirstB c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t), VO4.read (Elt F) VO4.junk, outFirstSmin c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t), outFirstSmax c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t))

/-- What the three outputs' buffers and the two scratch rows hold after the body at a middle point, given what the point before left (the extrema window is not stored into: a placeholder stands for it, which nothing reads). -/
def stepMid (c : Dev nD) (t : Fin cfg0.N) (h0 : ¬t.val = 0) (h1 : ¬t.val = 15) (prev : (Vec F S32x16384 .f32 × Vec F S32x16384 .f32 × Vec F S1x2 .f32 × Vec F S1x128 .f32 × Vec F S1x128 .f32)) : (Vec F S32x16384 .f32 × Vec F S32x16384 .f32 × Vec F S1x2 .f32 × Vec F S1x128 .f32 × Vec F S1x128 .f32) :=
  (outMidA c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) prev.2.2.2.1 prev.2.2.2.2, outMidB c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) prev.2.2.2.1 prev.2.2.2.2, VO4.read (Elt F) VO4.junk, outMidSmin c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) prev.2.2.2.1 prev.2.2.2.2, outMidSmax c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) prev.2.2.2.1 prev.2.2.2.2)

/-- What the three outputs' buffers and the two scratch rows hold after the body at the last point, given what the point before left. -/
def stepLast (c : Dev nD) (t : Fin cfg0.N) (h0 : ¬t.val = 0) (h1 : t.val = 15) (prev : (Vec F S32x16384 .f32 × Vec F S32x16384 .f32 × Vec F S1x2 .f32 × Vec F S1x128 .f32 × Vec F S1x128 .f32)) : (Vec F S32x16384 .f32 × Vec F S32x16384 .f32 × Vec F S1x2 .f32 × Vec F S1x128 .f32 × Vec F S1x128 .f32) :=
  (outLastA c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2, outLastB c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2, outLastE c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2, outLastSmin c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2, outLastSmax c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2)

/-- What the outputs' buffers and the scratch rows hold after the body at position `n`, by recursion on the position:
    the first point's case at `0`, afterwards the middle or the last point's case over what position `n - 1` left in
    the scratch rows. -/
def outsAt (c : Dev nD) : (n : ℕ) → n < cfg0.N → (Vec F S32x16384 .f32 × Vec F S32x16384 .f32 × Vec F S1x2 .f32 × Vec F S1x128 .f32 × Vec F S1x128 .f32)
  | 0, hn => stepFirst m c ⟨0, hn⟩ rfl (fun h => absurd h (by decide : ¬(0 : ℕ) = 15))
  | n + 1, hn =>
    if h1 : n + 1 = 15 then stepLast m c ⟨n + 1, hn⟩ (Nat.succ_ne_zero n) h1 (outsAt c n (Nat.lt_of_succ_lt hn))
    else stepMid m c ⟨n + 1, hn⟩ (Nat.succ_ne_zero n) h1 (outsAt c n (Nat.lt_of_succ_lt hn))

theorem outsAt_first (c : Dev nD) (t : Fin cfg0.N) (h0 : t.val = 0) (h1 : ¬t.val = 15) :
    outsAt m c t.val t.isLt = stepFirst m c t h0 h1 := by
  obtain ⟨n, hn⟩ := t
  cases n with
  | zero => rfl
  | succ n => exact absurd h0 (Nat.succ_ne_zero n)

theorem outsAt_mid (c : Dev nD) (t : Fin cfg0.N) (h0 : ¬t.val = 0) (h1 : ¬t.val = 15) :
    outsAt m c t.val t.isLt = stepMid m c t h0 h1 (outsAt m c (t.val - 1) (Nat.lt_of_le_of_lt (Nat.sub_le _ _) t.isLt)) := by
  obtain ⟨n, hn⟩ := t
  cases n with
  | zero => exact absurd rfl h0
  | succ n => exact (dif_neg h1).trans rfl

theorem outsAt_last (c : Dev nD) (t : Fin cfg0.N) (h0 : ¬t.val = 0) (h1 : t.val = 15) :
    outsAt m c t.val t.isLt = stepLast m c t h0 h1 (outsAt m c (t.val - 1) (Nat.lt_of_le_of_lt (Nat.sub_le _ _) t.isLt)) := by
  obtain ⟨n, hn⟩ := t
  cases n with
  | zero => exact absurd rfl h0
  | succ n => exact (dif_pos h1).trans rfl

/-- The region's invariant before position `n`: before the first point whatever the launch lends; afterwards the two
    scratch rows at what the point before left in them, and the random-number generator's register at some state. -/
def PhiS (c : Dev nD) : (n : ℕ) → n ≤ cfg0.N → sProp 𝕄
  | 0, _ => Pipeline.ΦA spec0 c
  | n + 1, hn => iprop(iprop(owns (c : Thread nD τ) scMin fullShare (outsAt m c n hn).2.2.2.1 ∗ owns (c : Thread nD τ) scMax fullShare (outsAt m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMin fullShare (outsAt m c n hn).2.2.2.1 ∗ owns (c : Thread nD τ) scMax fullShare (outsAt m c n hn).2.2.2.2) ∗ (∃ r, prngReg c r)) := rfl

theorem PhiS_pos (c : Dev nD) (n : ℕ) (h : n ≤ cfg0.N) (hz : ¬n = 0) :
    PhiS m c n h = iprop(iprop(owns (c : Thread nD τ) scMin fullShare (outsAt m c (n - 1) (by omega)).2.2.2.1 ∗ owns (c : Thread nD τ) scMax fullShare (outsAt m c (n - 1) (by omega)).2.2.2.2) ∗ (∃ r, prngReg c r)) := by
  cases n with
  | zero => exact absurd rfl hz
  | succ n => rfl

/-! ## The proof data of the region -/

/-- The arrays as the region finds them; after the body at a point each input's buffer still at its block and each
    output's at what `outsAt` says; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]
theorem after4 (c : Dev nD) (t : Fin cfg0.N) : (dats m 0 c).after 4 t = (outsAt m c t.val t.isLt).2.2.1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the position decides the case; the invariant hands the body the scratch rows at what the
    point before left (at anything, at the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val = 0
  · by_cases h1 : t.val = 15
    · exfalso; omega
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((atLast_iff t).mp h))) (noFlush4 t (fun h => h1 ((atLast_iff t).mp h)))]
      rw [outsAt_first m c t h0 h1]
      unfold stepFirst; (try dsimp only)
      rw [PhiS_castSucc m c t, PhiS_zero m c _ _ h0, PhiA_eq]
      iintro ⟨⟨⟨HS0, HS1⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (iblk m c 0 t) (iblk m c 1 t)).2.2.2.2 _ Set.univ _)
      isplitl [H0]; · iexact H0
      isplitl [H1]; · iexact H1
      isplitl [H2]; · iexists _; iexact H2
      isplitl [H3]; · iexists _; iexact H3
      isplitl [H4]; · iexact H4
      isplitl [HS0]; · iexact HS0
      isplitl [HS1]; · iexact HS1
      iintro ⟨H0, H1, ⟨%e2, H2⟩, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstSmin c _ _ _ _ _ _ _ _ _ _ _ _ _ _ _ _ _ _ _)
          · unfold owns; iexists _; isplitr
            swap; · iexact HS1
            ipureintro; exact View.read_writes_of_cover _ _ _ _ _ (coverFirstSmax c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverFirstA c _ _ _ _ _ _ _ _ _ _ _ _ _ _ _ _ _ _ _)
      isplitl [H3]
      · unfold owns; iexists _; isplitr
        swap; · iexact H3
        ipureintro; exact View.read_writes_of_cover _ _ _ _ _ (coverFirstB c _ _ _ _ _ _ _ _ _ _ _ _ _ _ _ _ _ _ _)
      iexists _; iexact H4
  · by_cases h1 : t.val = 15
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t ((atLast_iff t).mpr h1)], after4]
      rw [outsAt_last m c t h0 h1]
      unfold stepLast; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((atFirst_iff t).mp h)) ((atLast_iff t).mpr h1) (iblk m c 0 t) (iblk m c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLastSmin c _ _ _ _ _ _ _ _ _ _ _ _ _ _ _ _ _ _ _ _ _)
          · unfold owns; iexists _; isplitr
            swap; · iexact HS1
            ipureintro; exact View.read_writes_of_cover _ _ _ _ _ (coverLastSmax c _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverLastA c _ _ _ _ _ _ _ _ _ _ _ _ _ _ _ _ _ _ _ _ _)
      isplitl [H3]
      · unfold owns; iexists _; isplitr
        swap; · iexact H3
        ipureintro; exact View.read_writes_of_cover _ _ _ _ _ (coverLastB c _ _ _ _ _ _ _ _ _ _ _ _ _ _ _ _ _ _ _ _ _)
      unfold owns; iexists _; isplitr
      swap; · iexact H4
      ipureintro; exact View.read_writes_of_cover _ _ _ _ _ (coverLastE c _ _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((atLast_iff t).mp h))) (noFlush4 t (fun h => h1 ((atLast_iff t).mp h)))]
      rw [outsAt_mid m c t h0 h1]
      unfold stepMid; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((atFirst_iff t).mp h)) (fun h => h1 ((atLast_iff t).mp h)) (iblk m c 0 t) (iblk m c 1 t) _ _).2.2.2.2 _ Set.univ _)
      isplitl [H0]; · iexact H0
      isplitl [H1]; · iexact H1
      isplitl [H2]; · iexists _; iexact H2
      isplitl [H3]; · iexists _; iexact H3
      isplitl [H4]; · iexact H4
      isplitl [HS0]; · iexact HS0
      isplitl [HS1]; · iexact HS1
      iintro ⟨H0, H1, ⟨%e2, H2⟩, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMidSmin c _ _ _ _ _ _ _ _ _ _ _ _ _ _ _ _ _ _ _ _ _)
          · unfold owns; iexists _; isplitr
            swap; · iexact HS1
            ipureintro; exact View.read_writes_of_cover _ _ _ _ _ (coverMidSmax c _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverMidA c _ _ _ _ _ _ _ _ _ _ _ _ _ _ _ _ _ _ _ _ _)
      isplitl [H3]
      · unfold owns; iexists _; isplitr
        swap; · iexact H3
        ipureintro; exact View.read_writes_of_cover _ _ _ _ _ (coverMidB c _ _ _ _ _ _ _ _ _ _ _ _ _ _ _ _ _ _ _ _ _)
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HS0, HS1⟩, Hg⟩
  isplitl [HS0 HS1]
  · isplitl [HS0]
    · iexists _; iexact HS0
    · iexists _; iexact HS1
  iexact Hg

/-! ## The run -/

set_option backward.isDefEq.respectTransparency.types false in
/-- Every weakly fair execution of the program terminates without a fault; afterwards each of the region's arrays holds
    what the write-backs assemble from `outsAt`, and every other buffer what the later host operations compute from them. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame: the program runs to the end, faults nowhere, and leaves both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (dats m) (run_main m ρ)

end Cert.Kernel.Hand

end
-- ==== Proof.IdealShared.lean ====
import proofs.«158077_j41790031790570_1_alg».proof.Proof.Gen.KernelIdeal.Launch
import proofs.«158077_j41790031790570_1_alg».proof.Proof.Gen.KernelIdeal.Skeleton
import proofs.«158077_j41790031790570_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one kernel region

Two reshapes come before the region; everything after it is host arithmetic on the region's three results. -/

/-- What core `c`'s buffers hold when the region is entered: the launch contents after the two reshapes. -/
abbrev V0 (c : Dev nD) : Valuation τ sig (Elt F) := StableHlo.after (List.flatten [hostOps0]) (fun b => m (c, b))
/-- The same, read at one reference. -/
abbrev V (c : Dev nD) (b : Ref sig .tc) : Buf (Elt F) ((c : Thread nD τ).loc b) := V0 m c (Proc.devRef .tc b)

/-- The five stretches of host operations that follow the region, in order. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is the reshapes, the region, and then the later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later operation touches only unscoped buffers of the core. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None of them allocates. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No operation of this stretch writes one of the region's five arrays: each writes its own result only. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation of this stretch writes one of the region's five arrays: each writes its own result only. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation of this stretch writes one of the region's five arrays: each writes its own result only. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation of this stretch writes one of the region's five arrays: each writes its own result only. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No operation of this stretch writes one of the region's five arrays: each writes its own result only. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem tail_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact hostOps1_keeps op hop
  · exact hostOps1_1_keeps op hop
  · exact hostOps1_2_keeps op hop
  · exact hostOps1_3_keeps op hop
  · exact hostOps1_4_keeps op hop

/-- The reshapes write fresh buffers, so the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes argument 0, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
/-- No later operation writes argument 1, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [tailOps, hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## Blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whenever the body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, whenever the body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- From a run whose post names every buffer's final contents to the frame statement: both arguments bypass the region
    and no later operation writes them. -/
theorem frame_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's two branches

The first branch resets the two running extrema and is taken at the first grid point only; the second writes them out
and is taken at the last grid point only. -/

/-- The reset branch's condition, from the grid coordinate. -/
abbrev atFirst (i : grid0.Coords) : Prop := (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)

/-- The write-out branch's condition. -/
abbrev atLast (i : grid0.Coords) : Prop := k0_cond2 i = 1#1
theorem atLast_iff : ∀ t : Fin cfg0.N, atLast (grid0.coords t) ↔ t.val = 15 :=
  (by decide +kernel : ∀ t : Fin grid0.N, atLast (grid0.coords t) ↔ t.val = 15)

/-! ## Which windows are stored into where -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last point the extrema window is not stored into, -/
theorem idle4 : ∀ t : Fin cfg0.N, ¬atLast (grid0.coords t) → cfg0.idle 4 (grid0.coords t) = true := by decide +kernel
/-- nor written back; -/
theorem noFlush4 : ∀ t : Fin cfg0.N, ¬atLast (grid0.coords t) → (cfg0.win 4).flush t = false := by decide +kernel
/-- at the last point it is stored into. -/
theorem live4 : ∀ t : Fin cfg0.N, atLast (grid0.coords t) → cfg0.idle 4 (grid0.coords t) = false := by decide +kernel

/-! ## The memrefs the body is called with -/

abbrev ms0 (t : Fin cfg0.N) : Memref sig .tc .vmem S32x2x16384 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S32x2x16384 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S32x16384 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S32x16384 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S1x2 .f32 := win0_4.stage (cfg0.slots t 4)
abbrev hs4 (t : Fin cfg0.N) : (ms4 t).IsWhole := Facts₀.hstage0_4 ((cfg0.slots t 4).cast Facts₀.nbuf0_4)
/-- The running minimum's and the running maximum's scratch rows. -/
abbrev scMin : Memref sig .tc .vmem S1x128 .f32 := Memref.whole cc0_scratch0
abbrev scMax : Memref sig .tc .vmem S1x128 .f32 := Memref.whole cc0_scratch1
/-- One view per output shape and per scratch row, through which contents are stated. -/
abbrev VO2 : View sig .tc .vmem S32x16384 .f32 := (Memref.whole cc0_stg2_0 : Memref sig .tc .vmem S32x16384 .f32).view
abbrev VO3 : View sig .tc .vmem S32x16384 .f32 := (Memref.whole cc0_stg3_0 : Memref sig .tc .vmem S32x16384 .f32).view
abbrev VO4 : View sig .tc .vmem S1x2 .f32 := (Memref.whole cc0_stg4_0 : Memref sig .tc .vmem S1x2 .f32).view
abbrev VSmin : View sig .tc .vmem S1x128 .f32 := scMin.view
abbrev VSmax : View sig .tc .vmem S1x128 .f32 := scMax.view

/-- What the launch lends the region besides the windows: the two scratch rows at some contents, and the random-number generator's register. -/
theorem PhiA_eq (c : Dev nD) :
    (Pipeline.ΦA spec0 c : sProp 𝕄)
      = iprop(iprop((∃ d, owns (c : Thread nD τ) scMin fullShare d) ∗ (∃ d, owns (c : Thread nD τ) scMax fullShare d)) ∗ (∃ r, prngReg c r)) := by
  unfold Pipeline.ΦA; rw [scopedRest0_eq]; simp only [scMin, scMax, owns_whole]; try rfl

end Cert.KernelIdeal.Hand

end
-- ==== Proof.IdealRunFirst.lean ====
import proofs.«158077_j41790031790570_1_alg».proof.Proof.IdealShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first grid point: the running extrema are reset before they are updated, so whatever the two scratch rows held is overwritten; the extrema window is left as found. Given the two input blocks `x0`, `x1` in their staging buffers, the body terminates without
    a fault, leaves the inputs as they were, and leaves in every buffer it stores into a list of written pieces; the lists
    are found by running the body symbolically, and are the first components of this value. -/
noncomputable def runFirst (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i)
    (x0 x1 : Vec F S32x2x16384 .f32) :
    Σ' (L3 : List (View.Piece (Elt F) S32x16384 .f32)) (L4 : List (View.Piece (Elt F) S32x16384 .f32)) (LS0 : List (View.Piece (Elt F) S1x128 .f32)), { LS1 : List (View.Piece (Elt F) S1x128 .f32) //
      ∀ (xi5 : Vec F S1x2 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi5 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ owns (c : Thread nD τ) arg5 fullShare xi5 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__magnitude_kernel i arg1 harg1 arg2 harg2 arg3 harg3 arg4 harg4 arg5 harg5 arg6 harg6 arg7 harg7) K } := by
  refine ⟨?_, ?_, ?_, ?_, fun xi5 E K => ?run⟩
  case run =>
    simp only [cc0__magnitude_kernel_eq_skeleton]; unfold cc0__magnitude_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg5.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]
    · iexists _; isplitr; · ipureintro; exact harg5.read_unread _
      iexact H5
    isplitl [HS0]; · iexists _; iexact HS0
    iexists _; iexact HS1

end Cert.KernelIdeal.Hand

end
-- ==== Proof.IdealRunMid.lean ====
import proofs.«158077_j41790031790570_1_alg».proof.Proof.IdealRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point that is neither first nor last: the running extrema are updated from what the point before left; the extrema window is left as found. Given the two input blocks `x0`, `x1` in their staging buffers, the body terminates without
    a fault, leaves the inputs as they were, and leaves in every buffer it stores into a list of written pieces; the lists
    are found by running the body symbolically, and are the first components of this value. -/
noncomputable def runMid (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i)
    (x0 x1 : Vec F S32x2x16384 .f32) (xs0 xs1 : Vec F S1x128 .f32) :
    Σ' (L3 : List (View.Piece (Elt F) S32x16384 .f32)) (L4 : List (View.Piece (Elt F) S32x16384 .f32)) (LS0 : List (View.Piece (Elt F) S1x128 .f32)), { LS1 : List (View.Piece (Elt F) S1x128 .f32) //
      ∀ (xi5 : Vec F S1x2 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi5 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ owns (c : Thread nD τ) arg5 fullShare xi5 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__magnitude_kernel i arg1 harg1 arg2 harg2 arg3 harg3 arg4 harg4 arg5 harg5 arg6 harg6 arg7 harg7) K } := by
  refine ⟨?_, ?_, ?_, ?_, fun xi5 E K => ?run⟩
  case run =>
    simp only [cc0__magnitude_kernel_eq_skeleton]; unfold cc0__magnitude_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg5.eq_unread hf5; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]
    · iexists _; isplitr; · ipureintro; exact harg5.read_unread _
      iexact H5
    isplitl [HS0]; · iexists _; iexact HS0
    iexists _; iexact HS1

end Cert.KernelIdeal.Hand

end
-- ==== Proof.IdealRunLast.lean ====
import proofs.«158077_j41790031790570_1_alg».proof.Proof.IdealRunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last grid point: the running extrema are updated from what the point before left, and their first lanes are written to the extrema window. Given the two input blocks `x0`, `x1` in their staging buffers, the body terminates without
    a fault, leaves the inputs as they were, and leaves in every buffer it stores into a list of written pieces; the lists
    are found by running the body symbolically, and are the first components of this value. -/
noncomputable def runLast (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i)
    (x0 x1 : Vec F S32x2x16384 .f32) (xs0 xs1 : Vec F S1x128 .f32) :
    Σ' (L3 : List (View.Piece (Elt F) S32x16384 .f32)) (L4 : List (View.Piece (Elt F) S32x16384 .f32)) (L5 : List (View.Piece (Elt F) S1x2 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__magnitude_kernel i arg1 harg1 arg2 harg2 arg3 harg3 arg4 harg4 arg5 harg5 arg6 harg6 arg7 harg7) K } := by
  refine ⟨?_, ?_, ?_, ?_, ?_, fun E K => ?run⟩
  case run =>
    simp only [cc0__magnitude_kernel_eq_skeleton]; unfold cc0__magnitude_kernel_skel
    simp only [k0_part1_eq_skeleton]
    unfold owns
    iintro ⟨⟨%f0, %hf0, H0⟩, ⟨%f1, %hf1, H1⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.IdealFrame.lean ====
import proofs.«158077_j41790031790570_1_alg».proof.Proof.IdealRunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces the body writes into the first magnitude window's buffer at such a point tile it. -/
theorem coverFirstA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) (y : S32x16384.Idx) :
    ∃ pc ∈ (runFirst c i arg1 harg1 arg2 harg2 arg3 harg3 arg4 harg4 arg5 harg5 arg6 harg6 arg7 harg7 hc0 hc1 x0 x1).1, y ∈ pc.1.set :=
  View.cover_of_tiledL (runFirst c i arg1 harg1 arg2 harg2 arg3 harg3 arg4 harg4 arg5 harg5 arg6 harg6 arg7 harg7 hc0 hc1 x0 x1).1 S32x16384.size (by sl_kernel_rfl) y
/-- What the body leaves in the first magnitude window's buffer at such a point: its pieces read back. -/
def outFirstA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) : Vec F S32x16384 .f32 :=
  VO2.read (Elt F) (VO2.writes (Elt F) VO2.junk (runFirst c i arg1 harg1 arg2 harg2 arg3 harg3 arg4 harg4 arg5 harg5 arg6 harg6 arg7 harg7 hc0 hc1 x0 x1).1)
/-- The pieces the body writes into the second magnitude window's buffer at such a point tile it. -/
theorem coverFirstB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) (y : S32x16384.Idx) :
    ∃ pc ∈ (runFirst c i arg1 harg1 arg2 harg2 arg3 harg3 arg4 harg4 arg5 harg5 arg6 harg6 arg7 harg7 hc0 hc1 x0 x1).2.1, y ∈ pc.1.set :=
  View.cover_of_tiledL (runFirst c i arg1 harg1 arg2 harg2 arg3 harg3 arg4 harg4 arg5 harg5 arg6 harg6 arg7 harg7 hc0 hc1 x0 x1).2.1 S32x16384.size (by sl_kernel_rfl) y
/-- What the body leaves in the second magnitude window's buffer at such a point: its pieces read back. -/
def outFirstB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) : Vec F S32x16384 .f32 :=
  VO3.read (Elt F) (VO3.writes (Elt F) VO3.junk (runFirst c i arg1 harg1 arg2 harg2 arg3 harg3 arg4 harg4 arg5 harg5 arg6 harg6 arg7 harg7 hc0 hc1 x0 x1).2.1)
/-- The pieces the body writes into the running-minimum row at such a point tile it. -/
theorem coverFirstSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) (y : S1x128.Idx) :
    ∃ pc ∈ (runFirst c i arg1 harg1 arg2 harg2 arg3 harg3 arg4 harg4 arg5 harg5 arg6 harg6 arg7 harg7 hc0 hc1 x0 x1).2.2.1, y ∈ pc.1.set :=
  View.cover_of_tiledL (runFirst c i arg1 harg1 arg2 harg2 arg3 harg3 arg4 harg4 arg5 harg5 arg6 harg6 arg7 harg7 hc0 hc1 x0 x1).2.2.1 S1x128.size (by sl_kernel_rfl) y
/-- What the body leaves in the running-minimum row at such a point: its pieces read back. -/
def outFirstSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) : Vec F S1x128 .f32 :=
  VSmin.read (Elt F) (VSmin.writes (Elt F) VSmin.junk (runFirst c i arg1 harg1 arg2 harg2 arg3 harg3 arg4 harg4 arg5 harg5 arg6 harg6 arg7 harg7 hc0 hc1 x0 x1).2.2.1)
/-- The pieces the body writes into the running-maximum row at such a point tile it. -/
theorem coverFirstSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) (y : S1x128.Idx) :
    ∃ pc ∈ (runFirst c i arg1 harg1 arg2 harg2 arg3 harg3 arg4 harg4 arg5 harg5 arg6 harg6 arg7 harg7 hc0 hc1 x0 x1).2.2.2.1, y ∈ pc.1.set :=
  View.cover_of_tiledL (runFirst c i arg1 harg1 arg2 harg2 arg3 harg3 arg4 harg4 arg5 harg5 arg6 harg6 arg7 harg7 hc0 hc1 x0 x1).2.2.2.1 S1x128.size (by sl_kernel_rfl) y
/-- What the body leaves in the running-maximum row at such a point: its pieces read back. -/
def outFirstSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) : Vec F S1x128 .f32 :=
  VSmax.read (Elt F) (VSmax.writes (Elt F) VSmax.junk (runFirst c i arg1 harg1 arg2 harg2 arg3 harg3 arg4 harg4 arg5 harg5 arg6 harg6 arg7 harg7 hc0 hc1 x0 x1).2.2.2.1)

/-- The pieces the body writes into the first magnitude window's buffer at such a point tile it. -/
theorem coverMidA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) (y : S32x16384.Idx) :
    ∃ pc ∈ (runMid c i arg1 harg1 arg2 harg2 arg3 harg3 arg4 harg4 arg5 harg5 arg6 harg6 arg7 harg7 hc0 hc1 x0 x1 xs0 xs1).1, y ∈ pc.1.set :=
  View.cover_of_tiledL (runMid c i arg1 harg1 arg2 harg2 arg3 harg3 arg4 harg4 arg5 harg5 arg6 harg6 arg7 harg7 hc0 hc1 x0 x1 xs0 xs1).1 S32x16384.size (by sl_kernel_rfl) y
/-- What the body leaves in the first magnitude window's buffer at such a point: its pieces read back. -/
def outMidA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) : Vec F S32x16384 .f32 :=
  VO2.read (Elt F) (VO2.writes (Elt F) VO2.junk (runMid c i arg1 harg1 arg2 harg2 arg3 harg3 arg4 harg4 arg5 harg5 arg6 harg6 arg7 harg7 hc0 hc1 x0 x1 xs0 xs1).1)
/-- The pieces the body writes into the second magnitude window's buffer at such a point tile it. -/
theorem coverMidB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) (y : S32x16384.Idx) :
    ∃ pc ∈ (runMid c i arg1 harg1 arg2 harg2 arg3 harg3 arg4 harg4 arg5 harg5 arg6 harg6 arg7 harg7 hc0 hc1 x0 x1 xs0 xs1).2.1, y ∈ pc.1.set :=
  View.cover_of_tiledL (runMid c i arg1 harg1 arg2 harg2 arg3 harg3 arg4 harg4 arg5 harg5 arg6 harg6 arg7 harg7 hc0 hc1 x0 x1 xs0 xs1).2.1 S32x16384.size (by sl_kernel_rfl) y
/-- What the body leaves in the second magnitude window's buffer at such a point: its pieces read back. -/
def outMidB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) : Vec F S32x16384 .f32 :=
  VO3.read (Elt F) (VO3.writes (Elt F) VO3.junk (runMid c i arg1 harg1 arg2 harg2 arg3 harg3 arg4 harg4 arg5 harg5 arg6 harg6 arg7 harg7 hc0 hc1 x0 x1 xs0 xs1).2.1)
/-- The pieces the body writes into the running-minimum row at such a point tile it. -/
theorem coverMidSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) (y : S1x128.Idx) :
    ∃ pc ∈ (runMid c i arg1 harg1 arg2 harg2 arg3 harg3 arg4 harg4 arg5 harg5 arg6 harg6 arg7 harg7 hc0 hc1 x0 x1 xs0 xs1).2.2.1, y ∈ pc.1.set :=
  View.cover_of_tiledL (runMid c i arg1 harg1 arg2 harg2 arg3 harg3 arg4 harg4 arg5 harg5 arg6 harg6 arg7 harg7 hc0 hc1 x0 x1 xs0 xs1).2.2.1 S1x128.size (by sl_kernel_rfl) y
/-- What the body leaves in the running-minimum row at such a point: its pieces read back. -/
def outMidSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) : Vec F S1x128 .f32 :=
  VSmin.read (Elt F) (VSmin.writes (Elt F) VSmin.junk (runMid c i arg1 harg1 arg2 harg2 arg3 harg3 arg4 harg4 arg5 harg5 arg6 harg6 arg7 harg7 hc0 hc1 x0 x1 xs0 xs1).2.2.1)
/-- The pieces the body writes into the running-maximum row at such a point tile it. -/
theorem coverMidSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) (y : S1x128.Idx) :
    ∃ pc ∈ (runMid c i arg1 harg1 arg2 harg2 arg3 harg3 arg4 harg4 arg5 harg5 arg6 harg6 arg7 harg7 hc0 hc1 x0 x1 xs0 xs1).2.2.2.1, y ∈ pc.1.set :=
  View.cover_of_tiledL (runMid c i arg1 harg1 arg2 harg2 arg3 harg3 arg4 harg4 arg5 harg5 arg6 harg6 arg7 harg7 hc0 hc1 x0 x1 xs0 xs1).2.2.2.1 S1x128.size (by sl_kernel_rfl) y
/-- What the body leaves in the running-maximum row at such a point: its pieces read back. -/
def outMidSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) : Vec F S1x128 .f32 :=
  VSmax.read (Elt F) (VSmax.writes (Elt F) VSmax.junk (runMid c i arg1 harg1 arg2 harg2 arg3 harg3 arg4 harg4 arg5 harg5 arg6 harg6 arg7 harg7 hc0 hc1 x0 x1 xs0 xs1).2.2.2.1)

/-- The pieces the body writes into the first magnitude window's buffer at such a point tile it. -/
theorem coverLastA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S32x16384.Idx) :
    ∃ pc ∈ (runLast c i arg1 harg1 arg2 harg2 arg3 harg3 arg4 harg4 arg5 harg5 arg6 harg6 arg7 harg7 hc0 hc1 x0 x1 xs0 xs1).1, y ∈ pc.1.set :=
  View.cover_of_tiledL (runLast c i arg1 harg1 arg2 harg2 arg3 harg3 arg4 harg4 arg5 harg5 arg6 harg6 arg7 harg7 hc0 hc1 x0 x1 xs0 xs1).1 S32x16384.size (by sl_kernel_rfl) y
/-- What the body leaves in the first magnitude window's buffer at such a point: its pieces read back. -/
def outLastA (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S32x16384 .f32 :=
  VO2.read (Elt F) (VO2.writes (Elt F) VO2.junk (runLast c i arg1 harg1 arg2 harg2 arg3 harg3 arg4 harg4 arg5 harg5 arg6 harg6 arg7 harg7 hc0 hc1 x0 x1 xs0 xs1).1)
/-- The pieces the body writes into the second magnitude window's buffer at such a point tile it. -/
theorem coverLastB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S32x16384.Idx) :
    ∃ pc ∈ (runLast c i arg1 harg1 arg2 harg2 arg3 harg3 arg4 harg4 arg5 harg5 arg6 harg6 arg7 harg7 hc0 hc1 x0 x1 xs0 xs1).2.1, y ∈ pc.1.set :=
  View.cover_of_tiledL (runLast c i arg1 harg1 arg2 harg2 arg3 harg3 arg4 harg4 arg5 harg5 arg6 harg6 arg7 harg7 hc0 hc1 x0 x1 xs0 xs1).2.1 S32x16384.size (by sl_kernel_rfl) y
/-- What the body leaves in the second magnitude window's buffer at such a point: its pieces read back. -/
def outLastB (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S32x16384 .f32 :=
  VO3.read (Elt F) (VO3.writes (Elt F) VO3.junk (runLast c i arg1 harg1 arg2 harg2 arg3 harg3 arg4 harg4 arg5 harg5 arg6 harg6 arg7 harg7 hc0 hc1 x0 x1 xs0 xs1).2.1)
/-- The pieces the body writes into the extrema window's buffer at such a point tile it. -/
theorem coverLastE (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S1x2.Idx) :
    ∃ pc ∈ (runLast c i arg1 harg1 arg2 harg2 arg3 harg3 arg4 harg4 arg5 harg5 arg6 harg6 arg7 harg7 hc0 hc1 x0 x1 xs0 xs1).2.2.1, y ∈ pc.1.set :=
  View.cover_of_tiledL (runLast c i arg1 harg1 arg2 harg2 arg3 harg3 arg4 harg4 arg5 harg5 arg6 harg6 arg7 harg7 hc0 hc1 x0 x1 xs0 xs1).2.2.1 S1x2.size (by sl_kernel_rfl) y
/-- What the body leaves in the extrema window's buffer at such a point: its pieces read back. -/
def outLastE (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S1x2 .f32 :=
  VO4.read (Elt F) (VO4.writes (Elt F) VO4.junk (runLast c i arg1 harg1 arg2 harg2 arg3 harg3 arg4 harg4 arg5 harg5 arg6 harg6 arg7 harg7 hc0 hc1 x0 x1 xs0 xs1).2.2.1)
/-- The pieces the body writes into the running-minimum row at such a point tile it. -/
theorem coverLastSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S1x128.Idx) :
    ∃ pc ∈ (runLast c i arg1 harg1 arg2 harg2 arg3 harg3 arg4 harg4 arg5 harg5 arg6 harg6 arg7 harg7 hc0 hc1 x0 x1 xs0 xs1).2.2.2.1, y ∈ pc.1.set :=
  View.cover_of_tiledL (runLast c i arg1 harg1 arg2 harg2 arg3 harg3 arg4 harg4 arg5 harg5 arg6 harg6 arg7 harg7 hc0 hc1 x0 x1 xs0 xs1).2.2.2.1 S1x128.size (by sl_kernel_rfl) y
/-- What the body leaves in the running-minimum row at such a point: its pieces read back. -/
def outLastSmin (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S1x128 .f32 :=
  VSmin.read (Elt F) (VSmin.writes (Elt F) VSmin.junk (runLast c i arg1 harg1 arg2 harg2 arg3 harg3 arg4 harg4 arg5 harg5 arg6 harg6 arg7 harg7 hc0 hc1 x0 x1 xs0 xs1).2.2.2.1)
/-- The pieces the body writes into the running-maximum row at such a point tile it. -/
theorem coverLastSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) (y : S1x128.Idx) :
    ∃ pc ∈ (runLast c i arg1 harg1 arg2 harg2 arg3 harg3 arg4 harg4 arg5 harg5 arg6 harg6 arg7 harg7 hc0 hc1 x0 x1 xs0 xs1).2.2.2.2.1, y ∈ pc.1.set :=
  View.cover_of_tiledL (runLast c i arg1 harg1 arg2 harg2 arg3 harg3 arg4 harg4 arg5 harg5 arg6 harg6 arg7 harg7 hc0 hc1 x0 x1 xs0 xs1).2.2.2.2.1 S1x128.size (by sl_kernel_rfl) y
/-- What the body leaves in the running-maximum row at such a point: its pieces read back. -/
def outLastSmax (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) : Vec F S1x128 .f32 :=
  VSmax.read (Elt F) (VSmax.writes (Elt F) VSmax.junk (runLast c i arg1 harg1 arg2 harg2 arg3 harg3 arg4 harg4 arg5 harg5 arg6 harg6 arg7 harg7 hc0 hc1 x0 x1 xs0 xs1).2.2.2.2.1)

/-! ## Point by point -/

/-- What the three outputs' buffers and the two scratch rows hold after the body at the first point (the extrema window is not stored into: a placeholder stands for it, which nothing reads). -/
def stepFirst (c : Dev nD) (t : Fin cfg0.N) (h0 : t.val = 0) (h1 : ¬t.val = 15) : (Vec F S32x16384 .f32 × Vec F S32x16384 .f32 × Vec F S1x2 .f32 × Vec F S1x128 .f32 × Vec F S1x128 .f32) :=
  (outFirstA c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t), outFirstB c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t), VO4.read (Elt F) VO4.junk, outFirstSmin c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t), outFirstSmax c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t))

/-- What the three outputs' buffers and the two scratch rows hold after the body at a middle point, given what the point before left (the extrema window is not stored into: a placeholder stands for it, which nothing reads). -/
def stepMid (c : Dev nD) (t : Fin cfg0.N) (h0 : ¬t.val = 0) (h1 : ¬t.val = 15) (prev : (Vec F S32x16384 .f32 × Vec F S32x16384 .f32 × Vec F S1x2 .f32 × Vec F S1x128 .f32 × Vec F S1x128 .f32)) : (Vec F S32x16384 .f32 × Vec F S32x16384 .f32 × Vec F S1x2 .f32 × Vec F S1x128 .f32 × Vec F S1x128 .f32) :=
  (outMidA c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) prev.2.2.2.1 prev.2.2.2.2, outMidB c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) prev.2.2.2.1 prev.2.2.2.2, VO4.read (Elt F) VO4.junk, outMidSmin c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) prev.2.2.2.1 prev.2.2.2.2, outMidSmax c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) prev.2.2.2.1 prev.2.2.2.2)

/-- What the three outputs' buffers and the two scratch rows hold after the body at the last point, given what the point before left. -/
def stepLast (c : Dev nD) (t : Fin cfg0.N) (h0 : ¬t.val = 0) (h1 : t.val = 15) (prev : (Vec F S32x16384 .f32 × Vec F S32x16384 .f32 × Vec F S1x2 .f32 × Vec F S1x128 .f32 × Vec F S1x128 .f32)) : (Vec F S32x16384 .f32 × Vec F S32x16384 .f32 × Vec F S1x2 .f32 × Vec F S1x128 .f32 × Vec F S1x128 .f32) :=
  (outLastA c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2, outLastB c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2, outLastE c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2, outLastSmin c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2, outLastSmax c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) prev.2.2.2.1 prev.2.2.2.2)

/-- What the outputs' buffers and the scratch rows hold after the body at position `n`, by recursion on the position:
    the first point's case at `0`, afterwards the middle or the last point's case over what position `n - 1` left in
    the scratch rows. -/
def outsAt (c : Dev nD) : (n : ℕ) → n < cfg0.N → (Vec F S32x16384 .f32 × Vec F S32x16384 .f32 × Vec F S1x2 .f32 × Vec F S1x128 .f32 × Vec F S1x128 .f32)
  | 0, hn => stepFirst m c ⟨0, hn⟩ rfl (fun h => absurd h (by decide : ¬(0 : ℕ) = 15))
  | n + 1, hn =>
    if h1 : n + 1 = 15 then stepLast m c ⟨n + 1, hn⟩ (Nat.succ_ne_zero n) h1 (outsAt c n (Nat.lt_of_succ_lt hn))
    else stepMid m c ⟨n + 1, hn⟩ (Nat.succ_ne_zero n) h1 (outsAt c n (Nat.lt_of_succ_lt hn))

theorem outsAt_first (c : Dev nD) (t : Fin cfg0.N) (h0 : t.val = 0) (h1 : ¬t.val = 15) :
    outsAt m c t.val t.isLt = stepFirst m c t h0 h1 := by
  obtain ⟨n, hn⟩ := t
  cases n with
  | zero => rfl
  | succ n => exact absurd h0 (Nat.succ_ne_zero n)

theorem outsAt_mid (c : Dev nD) (t : Fin cfg0.N) (h0 : ¬t.val = 0) (h1 : ¬t.val = 15) :
    outsAt m c t.val t.isLt = stepMid m c t h0 h1 (outsAt m c (t.val - 1) (Nat.lt_of_le_of_lt (Nat.sub_le _ _) t.isLt)) := by
  obtain ⟨n, hn⟩ := t
  cases n with
  | zero => exact absurd rfl h0
  | succ n => exact (dif_neg h1).trans rfl

theorem outsAt_last (c : Dev nD) (t : Fin cfg0.N) (h0 : ¬t.val = 0) (h1 : t.val = 15) :
    outsAt m c t.val t.isLt = stepLast m c t h0 h1 (outsAt m c (t.val - 1) (Nat.lt_of_le_of_lt (Nat.sub_le _ _) t.isLt)) := by
  obtain ⟨n, hn⟩ := t
  cases n with
  | zero => exact absurd rfl h0
  | succ n => exact (dif_pos h1).trans rfl

/-- The region's invariant before position `n`: before the first point whatever the launch lends; afterwards the two
    scratch rows at what the point before left in them, and the random-number generator's register at some state. -/
def PhiS (c : Dev nD) : (n : ℕ) → n ≤ cfg0.N → sProp 𝕄
  | 0, _ => Pipeline.ΦA spec0 c
  | n + 1, hn => iprop(iprop(owns (c : Thread nD τ) scMin fullShare (outsAt m c n hn).2.2.2.1 ∗ owns (c : Thread nD τ) scMax fullShare (outsAt m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMin fullShare (outsAt m c n hn).2.2.2.1 ∗ owns (c : Thread nD τ) scMax fullShare (outsAt m c n hn).2.2.2.2) ∗ (∃ r, prngReg c r)) := rfl

theorem PhiS_pos (c : Dev nD) (n : ℕ) (h : n ≤ cfg0.N) (hz : ¬n = 0) :
    PhiS m c n h = iprop(iprop(owns (c : Thread nD τ) scMin fullShare (outsAt m c (n - 1) (by omega)).2.2.2.1 ∗ owns (c : Thread nD τ) scMax fullShare (outsAt m c (n - 1) (by omega)).2.2.2.2) ∗ (∃ r, prngReg c r)) := by
  cases n with
  | zero => exact absurd rfl hz
  | succ n => rfl

/-! ## The proof data of the region -/

/-- The arrays as the region finds them; after the body at a point each input's buffer still at its block and each
    output's at what `outsAt` says; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
    | ⟨4, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]
theorem after4 (c : Dev nD) (t : Fin cfg0.N) : (dats m 0 c).after 4 t = (outsAt m c t.val t.isLt).2.2.1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the position decides the case; the invariant hands the body the scratch rows at what the
    point before left (at anything, at the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val = 0
  · by_cases h1 : t.val = 15
    · exfalso; omega
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((atLast_iff t).mp h))) (noFlush4 t (fun h => h1 ((atLast_iff t).mp h)))]
      rw [outsAt_first m c t h0 h1]
      unfold stepFirst; (try dsimp only)
      rw [PhiS_castSucc m c t, PhiS_zero m c _ _ h0, PhiA_eq]
      iintro ⟨⟨⟨HS0, HS1⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ ((atFirst_iff t).mpr h0) (fun h => h1 ((atLast_iff t).mp h)) (iblk m c 0 t) (iblk m c 1 t)).2.2.2.2 _ Set.univ _)
      isplitl [H0]; · iexact H0
      isplitl [H1]; · iexact H1
      isplitl [H2]; · iexists _; iexact H2
      isplitl [H3]; · iexists _; iexact H3
      isplitl [H4]; · iexact H4
      isplitl [HS0]; · iexact HS0
      isplitl [HS1]; · iexact HS1
      iintro ⟨H0, H1, ⟨%e2, H2⟩, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverFirstSmin c _ _ _ _ _ _ _ _ _ _ _ _ _ _ _ _ _ _ _)
          · unfold owns; iexists _; isplitr
            swap; · iexact HS1
            ipureintro; exact View.read_writes_of_cover _ _ _ _ _ (coverFirstSmax c _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverFirstA c _ _ _ _ _ _ _ _ _ _ _ _ _ _ _ _ _ _ _)
      isplitl [H3]
      · unfold owns; iexists _; isplitr
        swap; · iexact H3
        ipureintro; exact View.read_writes_of_cover _ _ _ _ _ (coverFirstB c _ _ _ _ _ _ _ _ _ _ _ _ _ _ _ _ _ _ _)
      iexists _; iexact H4
  · by_cases h1 : t.val = 15
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t ((atLast_iff t).mpr h1)], after4]
      rw [outsAt_last m c t h0 h1]
      unfold stepLast; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((atFirst_iff t).mp h)) ((atLast_iff t).mpr h1) (iblk m c 0 t) (iblk m c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverLastSmin c _ _ _ _ _ _ _ _ _ _ _ _ _ _ _ _ _ _ _ _ _)
          · unfold owns; iexists _; isplitr
            swap; · iexact HS1
            ipureintro; exact View.read_writes_of_cover _ _ _ _ _ (coverLastSmax c _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverLastA c _ _ _ _ _ _ _ _ _ _ _ _ _ _ _ _ _ _ _ _ _)
      isplitl [H3]
      · unfold owns; iexists _; isplitr
        swap; · iexact H3
        ipureintro; exact View.read_writes_of_cover _ _ _ _ _ (coverLastB c _ _ _ _ _ _ _ _ _ _ _ _ _ _ _ _ _ _ _ _ _)
      unfold owns; iexists _; isplitr
      swap; · iexact H4
      ipureintro; exact View.read_writes_of_cover _ _ _ _ _ (coverLastE c _ _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4 t (fun h => h1 ((atLast_iff t).mp h))) (noFlush4 t (fun h => h1 ((atLast_iff t).mp h)))]
      rw [outsAt_mid m c t h0 h1]
      unfold stepMid; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((atFirst_iff t).mp h)) (fun h => h1 ((atLast_iff t).mp h)) (iblk m c 0 t) (iblk m c 1 t) _ _).2.2.2.2 _ Set.univ _)
      isplitl [H0]; · iexact H0
      isplitl [H1]; · iexact H1
      isplitl [H2]; · iexists _; iexact H2
      isplitl [H3]; · iexists _; iexact H3
      isplitl [H4]; · iexact H4
      isplitl [HS0]; · iexact HS0
      isplitl [HS1]; · iexact HS1
      iintro ⟨H0, H1, ⟨%e2, H2⟩, ⟨%e3, H3⟩, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverMidSmin c _ _ _ _ _ _ _ _ _ _ _ _ _ _ _ _ _ _ _ _ _)
          · unfold owns; iexists _; isplitr
            swap; · iexact HS1
            ipureintro; exact View.read_writes_of_cover _ _ _ _ _ (coverMidSmax c _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverMidA c _ _ _ _ _ _ _ _ _ _ _ _ _ _ _ _ _ _ _ _ _)
      isplitl [H3]
      · unfold owns; iexists _; isplitr
        swap; · iexact H3
        ipureintro; exact View.read_writes_of_cover _ _ _ _ _ (coverMidB c _ _ _ _ _ _ _ _ _ _ _ _ _ _ _ _ _ _ _ _ _)
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HS0, HS1⟩, Hg⟩
  isplitl [HS0 HS1]
  · isplitl [HS0]
    · iexists _; iexact HS0
    · iexists _; iexact HS1
  iexact Hg

/-! ## The run -/

set_option backward.isDefEq.respectTransparency.types false in
/-- Every weakly fair execution of the program terminates without a fault; afterwards each of the region's arrays holds
    what the write-backs assemble from `outsAt`, and every other buffer what the later host operations compute from them. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hin := hin m) (hout := hout m)

/-- The frame: the program runs to the end, faults nowhere, and leaves both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (dats m) (run_main m ρ)

end Cert.KernelIdeal.Hand

end
-- ==== Proof.IdealPieces.lean ====
import proofs.«158077_j41790031790570_1_alg».proof.Proof.IdealFrame
import Idealize.ShloMosaic.Lib.Pipeline.Value

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the body's buffers hold, in terms of the body's named arithmetic

The runs found, per case, lists of written pieces; each list is one whole-buffer store (preceded, at the first point, by the
reset of a scratch row), so each buffer ends at the named payload of that store over the blocks the body loaded. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-block load of an input buffer reads the block it holds. -/
theorem readBlock (arg : Memref sig .tc .vmem S32x2x16384 .f32) (harg : arg.IsWhole) (x : Vec F S32x2x16384 .f32)
    (inb : ∀ a, (![0, 0, 0] : Fin 3 → Nat) a + S32x2x16384.size a ≤ S32x2x16384.size a) :
    View.readAt (Elt F) arg.view (Rect.unit (s := S32x2x16384) ![0, 0, 0] S32x2x16384.size inb).toLoadRect (harg.unread x) = x := by
  rw [View.readAt_eq_ld, harg.read_unread, View.ld_unit_zero (S := S32x2x16384) hz3]

/-- A whole-row load of a scratch row reads what it holds. -/
theorem readRow (arg : Memref sig .tc .vmem S1x128 .f32) (harg : arg.IsWhole) (x : Vec F S1x128 .f32)
    (inb : ∀ a, (![0, 0] : Fin 2 → Nat) a + S1x128.size a ≤ S1x128.size a) :
    View.readAt (Elt F) arg.view (Rect.unit (s := S1x128) ![0, 0] S1x128.size inb).toLoadRect (harg.unread x) = x := by
  rw [View.readAt_eq_ld, harg.read_unread, View.ld_unit_zero (S := S1x128) hz2]

/-- The first lane of a scratch row, as the write-out branch loads it. -/
def corner (w : Vec F S1x128 .f32) : Vec F S1x1 .f32 :=
  fun j => w ((Rect.unit (s := S1x128) ![0, 0] S1x1.size Gen.inb_S1x128_S1x1_0_0).toLoadRect.idx j)

/-- Loading the first lane of a row just stored whole reads the stored row's first lane. -/
theorem cornerLoad (v : View sig .tc .vmem S1x128 .f32) (w : Vec F S1x128 .f32)
    (inb : ∀ a, (![0, 0] : Fin 2 → Nat) a + S1x128.size a ≤ S1x128.size a)
    (inb' : ∀ a, (![0, 0] : Fin 2 → Nat) a + S1x1.size a ≤ S1x128.size a) :
    v.readCov [(⟨Rect.unit (s := S1x128) ![0, 0] S1x128.size inb, w⟩ : View.Piece (Elt F) S1x128 .f32)]
      (Rect.unit (s := S1x128) ![0, 0] S1x1.size inb').toLoadRect = corner w := by
  rw [View.readCov_eq_canon']
  funext j
  exact congrFun (View.canon_unit_zero (S := S1x128) hz2 inb w) _

theorem outFirstA_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) :
    outFirstA c i arg1 harg1 arg2 harg2 arg3 harg3 arg4 harg4 arg5 harg5 arg6 harg6 arg7 harg7 hc0 hc1 x0 x1 = k0_pay6 x0 := by
  unfold outFirstA
  rw [View.read_writes_eq_canon _ _ _ (coverFirstA c i arg1 harg1 arg2 harg2 arg3 harg3 arg4 harg4 arg5 harg5 arg6 harg6 arg7 harg7 hc0 hc1 x0 x1)]
  unfold runFirst
  dsimp only
  sl_unfold_words
  refine (View.canon_unit_zero (S := S32x16384) hz2 _ _).trans ?_
  exact congrArg k0_pay6 (readBlock arg1 harg1 x0 _)

theorem outFirstB_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) :
    outFirstB c i arg1 harg1 arg2 harg2 arg3 harg3 arg4 harg4 arg5 harg5 arg6 harg6 arg7 harg7 hc0 hc1 x0 x1 = k0_pay7 x1 := by
  unfold outFirstB
  rw [View.read_writes_eq_canon _ _ _ (coverFirstB c i arg1 harg1 arg2 harg2 arg3 harg3 arg4 harg4 arg5 harg5 arg6 harg6 arg7 harg7 hc0 hc1 x0 x1)]
  unfold runFirst
  dsimp only
  sl_unfold_words
  refine (View.canon_unit_zero (S := S32x16384) hz2 _ _).trans ?_
  exact congrArg k0_pay7 (readBlock arg2 harg2 x1 _)

theorem outFirstSmin_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) :
    outFirstSmin c i arg1 harg1 arg2 harg2 arg3 harg3 arg4 harg4 arg5 harg5 arg6 harg6 arg7 harg7 hc0 hc1 x0 x1 = k0_pay1 (k0_pay8 x0) (k0_pay9 x1) (k0_pay4 (F := F)) := by
  unfold outFirstSmin
  rw [View.read_writes_eq_canon _ _ _ (coverFirstSmin c i arg1 harg1 arg2 harg2 arg3 harg3 arg4 harg4 arg5 harg5 arg6 harg6 arg7 harg7 hc0 hc1 x0 x1)]
  unfold runFirst
  dsimp only
  sl_unfold_words
  refine (View.canon_cons_unit_zero (S := S1x128) hz2 _ _ _).trans ?_
  exact congr (congr (congrArg k0_pay1 (congrArg k0_pay8 (readBlock arg1 harg1 x0 _))) (congrArg k0_pay9 (readBlock arg2 harg2 x1 _))) (View.readCov_unit_zero (S := S1x128) arg6.view hz2 _ _)

theorem outFirstSmax_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : atFirst i) (hc1 : ¬atLast i) (x0 x1 : Vec F S32x2x16384 .f32) :
    outFirstSmax c i arg1 harg1 arg2 harg2 arg3 harg3 arg4 harg4 arg5 harg5 arg6 harg6 arg7 harg7 hc0 hc1 x0 x1 = k0_pay2 (k0_pay10 x0) (k0_pay11 x1) (k0_pay5 (F := F)) := by
  unfold outFirstSmax
  rw [View.read_writes_eq_canon _ _ _ (coverFirstSmax c i arg1 harg1 arg2 harg2 arg3 harg3 arg4 harg4 arg5 harg5 arg6 harg6 arg7 harg7 hc0 hc1 x0 x1)]
  unfold runFirst
  dsimp only
  sl_unfold_words
  refine (View.canon_cons_unit_zero (S := S1x128) hz2 _ _ _).trans ?_
  exact congr (congr (congrArg k0_pay2 (congrArg k0_pay10 (readBlock arg1 harg1 x0 _))) (congrArg k0_pay11 (readBlock arg2 harg2 x1 _))) (View.readCov_unit_zero (S := S1x128) arg7.view hz2 _ _)

theorem outMidA_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) :
    outMidA c i arg1 harg1 arg2 harg2 arg3 harg3 arg4 harg4 arg5 harg5 arg6 harg6 arg7 harg7 hc0 hc1 x0 x1 xs0 xs1 = k0_pay6 x0 := by
  unfold outMidA
  rw [View.read_writes_eq_canon _ _ _ (coverMidA c i arg1 harg1 arg2 harg2 arg3 harg3 arg4 harg4 arg5 harg5 arg6 harg6 arg7 harg7 hc0 hc1 x0 x1 xs0 xs1)]
  unfold runMid
  dsimp only
  sl_unfold_words
  refine (View.canon_unit_zero (S := S32x16384) hz2 _ _).trans ?_
  exact congrArg k0_pay6 (readBlock arg1 harg1 x0 _)

theorem outMidB_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) :
    outMidB c i arg1 harg1 arg2 harg2 arg3 harg3 arg4 harg4 arg5 harg5 arg6 harg6 arg7 harg7 hc0 hc1 x0 x1 xs0 xs1 = k0_pay7 x1 := by
  unfold outMidB
  rw [View.read_writes_eq_canon _ _ _ (coverMidB c i arg1 harg1 arg2 harg2 arg3 harg3 arg4 harg4 arg5 harg5 arg6 harg6 arg7 harg7 hc0 hc1 x0 x1 xs0 xs1)]
  unfold runMid
  dsimp only
  sl_unfold_words
  refine (View.canon_unit_zero (S := S32x16384) hz2 _ _).trans ?_
  exact congrArg k0_pay7 (readBlock arg2 harg2 x1 _)

theorem outMidSmin_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) :
    outMidSmin c i arg1 harg1 arg2 harg2 arg3 harg3 arg4 harg4 arg5 harg5 arg6 harg6 arg7 harg7 hc0 hc1 x0 x1 xs0 xs1 = k0_pay1 (k0_pay8 x0) (k0_pay9 x1) xs0 := by
  unfold outMidSmin
  rw [View.read_writes_eq_canon _ _ _ (coverMidSmin c i arg1 harg1 arg2 harg2 arg3 harg3 arg4 harg4 arg5 harg5 arg6 harg6 arg7 harg7 hc0 hc1 x0 x1 xs0 xs1)]
  unfold runMid
  dsimp only
  sl_unfold_words
  refine (View.canon_unit_zero (S := S1x128) hz2 _ _).trans ?_
  exact congr (congr (congrArg k0_pay1 (congrArg k0_pay8 (readBlock arg1 harg1 x0 _))) (congrArg k0_pay9 (readBlock arg2 harg2 x1 _))) (readRow arg6 harg6 xs0 _)

theorem outMidSmax_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : ¬atLast i) (x0 x1 : Vec F S32x2x16384 .f32) (xs0 xs1 : Vec F S1x128 .f32) :
    outMidSmax c i arg1 harg1 arg2 harg2 arg3 harg3 arg4 harg4 arg5 harg5 arg6 harg6 arg7 harg7 hc0 hc1 x0 x1 xs0 xs1 = k0_pay2 (k0_pay10 x0) (k0_pay11 x1) xs1 := by
  unfold outMidSmax
  rw [View.read_writes_eq_canon _ _ _ (coverMidSmax c i arg1 harg1 arg2 harg2 arg3 harg3 arg4 harg4 arg5 harg5 arg6 harg6 arg7 harg7 hc0 hc1 x0 x1 xs0 xs1)]
  unfold runMid
  dsimp only
  sl_unfold_words
  refine (View.canon_unit_zero (S := S1x128) hz2 _ _).trans ?_
  exact congr (congr (congrArg k0_pay2 (congrArg k0_pay10 (readBlock arg1 harg1 x0 _))) (congrArg k0_pay11 (readBlock arg2 harg2 x1 _))) (readRow arg7 harg7 xs1 _)

theorem outLastA_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) :
    outLastA c i arg1 harg1 arg2 harg2 arg3 harg3 arg4 harg4 arg5 harg5 arg6 harg6 arg7 harg7 hc0 hc1 x0 x1 xs0 xs1 = k0_pay6 x0 := by
  unfold outLastA
  rw [View.read_writes_eq_canon _ _ _ (coverLastA c i arg1 harg1 arg2 harg2 arg3 harg3 arg4 harg4 arg5 harg5 arg6 harg6 arg7 harg7 hc0 hc1 x0 x1 xs0 xs1)]
  unfold runLast
  dsimp only
  sl_unfold_words
  refine (View.canon_unit_zero (S := S32x16384) hz2 _ _).trans ?_
  exact congrArg k0_pay6 (readBlock arg1 harg1 x0 _)

theorem outLastB_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) :
    outLastB c i arg1 harg1 arg2 harg2 arg3 harg3 arg4 harg4 arg5 harg5 arg6 harg6 arg7 harg7 hc0 hc1 x0 x1 xs0 xs1 = k0_pay7 x1 := by
  unfold outLastB
  rw [View.read_writes_eq_canon _ _ _ (coverLastB c i arg1 harg1 arg2 harg2 arg3 harg3 arg4 harg4 arg5 harg5 arg6 harg6 arg7 harg7 hc0 hc1 x0 x1 xs0 xs1)]
  unfold runLast
  dsimp only
  sl_unfold_words
  refine (View.canon_unit_zero (S := S32x16384) hz2 _ _).trans ?_
  exact congrArg k0_pay7 (readBlock arg2 harg2 x1 _)

theorem outLastE_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) :
    outLastE c i arg1 harg1 arg2 harg2 arg3 harg3 arg4 harg4 arg5 harg5 arg6 harg6 arg7 harg7 hc0 hc1 x0 x1 xs0 xs1 = k0_pay3 (corner (k0_pay1 (k0_pay8 x0) (k0_pay9 x1) xs0)) (corner (k0_pay2 (k0_pay10 x0) (k0_pay11 x1) xs1)) := by
  unfold outLastE
  rw [View.read_writes_eq_canon _ _ _ (coverLastE c i arg1 harg1 arg2 harg2 arg3 harg3 arg4 harg4 arg5 harg5 arg6 harg6 arg7 harg7 hc0 hc1 x0 x1 xs0 xs1)]
  unfold runLast
  dsimp only
  sl_unfold_words
  refine (View.canon_unit_zero (S := S1x2) hz2 _ _).trans ?_
  refine congr (congrArg k0_pay3 ((cornerLoad arg6.view _ _ _).trans (congrArg corner ?_))) ((cornerLoad arg7.view _ _ _).trans (congrArg corner ?_))
  · exact congr (congr (congrArg k0_pay1 (congrArg k0_pay8 (readBlock arg1 harg1 x0 _))) (congrArg k0_pay9 (readBlock arg2 harg2 x1 _))) (readRow arg6 harg6 xs0 _)
  · exact congr (congr (congrArg k0_pay2 (congrArg k0_pay10 (readBlock arg1 harg1 x0 _))) (congrArg k0_pay11 (readBlock arg2 harg2 x1 _))) (readRow arg7 harg7 xs1 _)

theorem outLastSmin_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) :
    outLastSmin c i arg1 harg1 arg2 harg2 arg3 harg3 arg4 harg4 arg5 harg5 arg6 harg6 arg7 harg7 hc0 hc1 x0 x1 xs0 xs1 = k0_pay1 (k0_pay8 x0) (k0_pay9 x1) xs0 := by
  unfold outLastSmin
  rw [View.read_writes_eq_canon _ _ _ (coverLastSmin c i arg1 harg1 arg2 harg2 arg3 harg3 arg4 harg4 arg5 harg5 arg6 harg6 arg7 harg7 hc0 hc1 x0 x1 xs0 xs1)]
  unfold runLast
  dsimp only
  sl_unfold_words
  refine (View.canon_unit_zero (S := S1x128) hz2 _ _).trans ?_
  exact congr (congr (congrArg k0_pay1 (congrArg k0_pay8 (readBlock arg1 harg1 x0 _))) (congrArg k0_pay9 (readBlock arg2 harg2 x1 _))) (readRow arg6 harg6 xs0 _)

theorem outLastSmax_eq (c : Dev nD) (i : grid0.Coords) (arg1 : Memref sig .tc .vmem S32x2x16384 .f32) (harg1 : arg1.IsWhole) (arg2 : Memref sig .tc .vmem S32x2x16384 .f32) (harg2 : arg2.IsWhole) (arg3 : Memref sig .tc .vmem S32x16384 .f32) (harg3 : arg3.IsWhole) (arg4 : Memref sig .tc .vmem S32x16384 .f32) (harg4 : arg4.IsWhole) (arg5 : Memref sig .tc .vmem S1x2 .f32) (harg5 : arg5.IsWhole) (arg6 : Memref sig .tc .vmem S1x128 .f32) (harg6 : arg6.IsWhole) (arg7 : Memref sig .tc .vmem S1x128 .f32) (harg7 : arg7.IsWhole) (hc0 : ¬atFirst i) (hc1 : atLast i) (x0 x1 : Vec F S32x2x16384 .f32) (xs0 xs1 : Vec F S1x128 .f32) :
    outLastSmax c i arg1 harg1 arg2 harg2 arg3 harg3 arg4 harg4 arg5 harg5 arg6 harg6 arg7 harg7 hc0 hc1 x0 x1 xs0 xs1 = k0_pay2 (k0_pay10 x0) (k0_pay11 x1) xs1 := by
  unfold outLastSmax
  rw [View.read_writes_eq_canon _ _ _ (coverLastSmax c i arg1 harg1 arg2 harg2 arg3 harg3 arg4 harg4 arg5 harg5 arg6 harg6 arg7 harg7 hc0 hc1 x0 x1 xs0 xs1)]
  unfold runLast
  dsimp only
  sl_unfold_words
  refine (View.canon_unit_zero (S := S1x128) hz2 _ _).trans ?_
  exact congr (congr (congrArg k0_pay2 (congrArg k0_pay10 (readBlock arg1 harg1 x0 _))) (congrArg k0_pay11 (readBlock arg2 harg2 x1 _))) (readRow arg7 harg7 xs1 _)

/-! ## `outsAt`, component by component -/

/-- The first magnitude window's buffer after point `t`: the clamped norms of the first image's block. -/
theorem outsAt_A (c : Dev nD) (t : Fin cfg0.N) : (outsAt m c t.val t.isLt).1 = k0_pay6 (iblk m c 0 t) := by
  have hN : t.val < 16 := lt_of_lt_of_eq t.isLt (show cfg0.N = 16 from N_0)
  by_cases h0 : t.val = 0
  · have h1 : ¬t.val = 15 := by omega
    rw [outsAt_first m c t h0 h1]
    unfold stepFirst; dsimp only
    exact outFirstA_eq c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t)
  · by_cases h1 : t.val = 15
    · rw [outsAt_last m c t h0 h1]
      unfold stepLast; dsimp only
      exact outLastA_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2
    · rw [outsAt_mid m c t h0 h1]
      unfold stepMid; dsimp only
      exact outMidA_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2

theorem outsAt_B (c : Dev nD) (t : Fin cfg0.N) : (outsAt m c t.val t.isLt).2.1 = k0_pay7 (iblk m c 1 t) := by
  have hN : t.val < 16 := lt_of_lt_of_eq t.isLt (show cfg0.N = 16 from N_0)
  by_cases h0 : t.val = 0
  · have h1 : ¬t.val = 15 := by omega
    rw [outsAt_first m c t h0 h1]
    unfold stepFirst; dsimp only
    exact outFirstB_eq c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t)
  · by_cases h1 : t.val = 15
    · rw [outsAt_last m c t h0 h1]
      unfold stepLast; dsimp only
      exact outLastB_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2
    · rw [outsAt_mid m c t h0 h1]
      unfold stepMid; dsimp only
      exact outMidB_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2

/-- The running minimum after the first point: the reset value updated by the first blocks' minima. -/
theorem outsAt_Smin_first (c : Dev nD) (t : Fin cfg0.N) (h0 : t.val = 0) :
    (outsAt m c t.val t.isLt).2.2.2.1 = k0_pay1 (k0_pay8 (iblk m c 0 t)) (k0_pay9 (iblk m c 1 t)) (k0_pay4 (F := F)) := by
  have hN : t.val < 16 := lt_of_lt_of_eq t.isLt (show cfg0.N = 16 from N_0)
  have h1 : ¬t.val = 15 := by omega
  rw [outsAt_first m c t h0 h1]
  unfold stepFirst; dsimp only
  exact outFirstSmin_eq c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t)

theorem outsAt_Smax_first (c : Dev nD) (t : Fin cfg0.N) (h0 : t.val = 0) :
    (outsAt m c t.val t.isLt).2.2.2.2 = k0_pay2 (k0_pay10 (iblk m c 0 t)) (k0_pay11 (iblk m c 1 t)) (k0_pay5 (F := F)) := by
  have hN : t.val < 16 := lt_of_lt_of_eq t.isLt (show cfg0.N = 16 from N_0)
  have h1 : ¬t.val = 15 := by omega
  rw [outsAt_first m c t h0 h1]
  unfold stepFirst; dsimp only
  exact outFirstSmax_eq c (grid0.coords t) (ms0 t) (hs0 t) (ms1 t) (hs1 t) (ms2 t) (hs2 t) (ms3 t) (hs3 t) (ms4 t) (hs4 t) scMin (Memref.isWhole_whole _) scMax (Memref.isWhole_whole _) ((atFirst_iff t).mpr h0) (fun h => h1 ((atLast_iff t).mp h)) (iblk m c 0 t) (iblk m c 1 t)

/-- The running minimum after a later point: what the point before left, updated by this point's blocks' minima. -/
theorem outsAt_Smin_next (c : Dev nD) (t : Fin cfg0.N) (h0 : ¬t.val = 0) :
    (outsAt m c t.val t.isLt).2.2.2.1
      = k0_pay1 (k0_pay8 (iblk m c 0 t)) (k0_pay9 (iblk m c 1 t)) (outsAt m c (t.val - 1) (Nat.lt_of_le_of_lt (Nat.sub_le _ _) t.isLt)).2.2.2.1 := by
  by_cases h1 : t.val = 15
  · rw [outsAt_last m c t h0 h1]
    unfold stepLast; dsimp only
    exact outLastSmin_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2
  · rw [outsAt_mid m c t h0 h1]
    unfold stepMid; dsimp only
    exact outMidSmin_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2

theorem outsAt_Smax_next (c : Dev nD) (t : Fin cfg0.N) (h0 : ¬t.val = 0) :
    (outsAt m c t.val t.isLt).2.2.2.2
      = k0_pay2 (k0_pay10 (iblk m c 0 t)) (k0_pay11 (iblk m c 1 t)) (outsAt m c (t.val - 1) (Nat.lt_of_le_of_lt (Nat.sub_le _ _) t.isLt)).2.2.2.2 := by
  by_cases h1 : t.val = 15
  · rw [outsAt_last m c t h0 h1]
    unfold stepLast; dsimp only
    exact outLastSmax_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2
  · rw [outsAt_mid m c t h0 h1]
    unfold stepMid; dsimp only
    exact outMidSmax_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) (fun h => h1 ((atLast_iff t).mp h)) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2

/-- The extrema window's buffer after the last point: the first lanes of the two running extrema, side by side. -/
theorem outsAt_E_last (c : Dev nD) (t : Fin cfg0.N) (h1 : t.val = 15) :
    (outsAt m c t.val t.isLt).2.2.1 = k0_pay3 (corner (outsAt m c t.val t.isLt).2.2.2.1) (corner (outsAt m c t.val t.isLt).2.2.2.2) := by
  have h0 : ¬t.val = 0 := by omega
  rw [outsAt_Smin_next m c t h0, outsAt_Smax_next m c t h0, outsAt_last m c t h0 h1]
  unfold stepLast; dsimp only
  exact outLastE_eq c (grid0.coords t) (ms0 t) (hs0 t) (ms1 t) (hs1 t) (ms2 t) (hs2 t) (ms3 t) (hs3 t) (ms4 t) (hs4 t) scMin (Memref.isWhole_whole _) scMax (Memref.isWhole_whole _) (fun h => h0 ((atFirst_iff t).mp h)) ((atLast_iff t).mpr h1) (iblk m c 0 t) (iblk m c 1 t) (outsAt m c (t.val - 1) (Nat.lt_of_le_of_lt (Nat.sub_le _ _) t.isLt)).2.2.2.1 (outsAt m c (t.val - 1) (Nat.lt_of_le_of_lt (Nat.sub_le _ _) t.isLt)).2.2.2.2

end Cert.KernelIdeal.Hand

end
-- ==== Proof.Extrema.lean ====
import Idealize.ShloMosaic.PureOps.Ideal.Laws
import Idealize.ShloMosaic.Lib.ValueIdx

noncomputable section

/-! # The least and the greatest value of two families of extended reals

Both programs compute the least (and the greatest) entry of two arrays taken together; one folds `min` over
each whole array and then takes the smaller of the two results, the other folds block by block and keeps a running
minimum. Each such fold is characterised by its lower bounds (`z ≤ fold ↔ z ≤ every entry`), so that two of them agree as soon
as they range over the same entries: no order of evaluation, and no finiteness of the entries, is involved. -/

namespace Cert.Extrema

open Idealize.ShloMosaic

/-- The least value the two families take. -/
def lowest {ι : Type} (A B : ι → EReal) : EReal := ⨅ j, min (A j) (B j)

/-- The greatest value the two families take. -/
def highest {ι : Type} (A B : ι → EReal) : EReal := ⨆ j, max (A j) (B j)

theorem le_lowest_iff {ι : Type} (A B : ι → EReal) (z : EReal) :
    z ≤ lowest A B ↔ ∀ j, z ≤ A j ∧ z ≤ B j := by
  simp only [lowest, le_iInf_iff, le_min_iff]

theorem highest_le_iff {ι : Type} (A B : ι → EReal) (z : EReal) :
    highest A B ≤ z ↔ ∀ j, A j ≤ z ∧ B j ≤ z := by
  simp only [highest, iSup_le_iff, max_le_iff]

/-- A value is `lowest A B` as soon as it has the same lower bounds. -/
theorem eq_lowest {ι : Type} (A B : ι → EReal) (x : EReal) (h : ∀ z, z ≤ x ↔ ∀ j, z ≤ A j ∧ z ≤ B j) : x = lowest A B :=
  eq_of_forall_le_iff fun z => (h z).trans (le_lowest_iff A B z).symm

/-- A value is `highest A B` as soon as it has the same upper bounds. -/
theorem eq_highest {ι : Type} (A B : ι → EReal) (x : EReal) (h : ∀ z, x ≤ z ↔ ∀ j, A j ≤ z ∧ B j ≤ z) : x = highest A B :=
  eq_of_forall_ge_iff fun z => (h z).trans (highest_le_iff A B z).symm

/-- The pattern of `+∞` is the top element, that of `-∞` the bottom one. -/
theorem posInf : Ideal.ofBits .f32 0x7F800000#32 = ⊤ := by simp [Ideal.ofBits, Ideal.ieee]
theorem negInf : Ideal.ofBits .f32 0xFF800000#32 = ⊥ := by simp [Ideal.ofBits, Ideal.ieee]

/-- A fold of the ideal `minimumf` from `+∞` is bounded below exactly by the lower bounds of its entries. -/
theorem le_foldMin_iff {ι : Type} (s : Finset ι) (f : ι → EReal) (z : EReal) :
    z ≤ s.fold (FloatOps.minimumf (F := Ideal) (φ := .f32)) (Ideal.ofBits .f32 0x7F800000#32) f ↔ ∀ x ∈ s, z ≤ f x := by
  rw [posInf]
  induction s using Finset.cons_induction with
  | empty => simp
  | cons a s ha ih =>
    rw [Finset.fold_cons]
    show z ≤ min (f a) _ ↔ _
    rw [le_min_iff, ih]
    simp only [Finset.mem_cons, forall_eq_or_imp]

/-- A fold of the ideal `maximumf` from `-∞` is bounded above exactly by the upper bounds of its entries. -/
theorem foldMax_le_iff {ι : Type} (s : Finset ι) (f : ι → EReal) (z : EReal) :
    s.fold (FloatOps.maximumf (F := Ideal) (φ := .f32)) (Ideal.ofBits .f32 0xFF800000#32) f ≤ z ↔ ∀ x ∈ s, f x ≤ z := by
  rw [negInf]
  induction s using Finset.cons_induction with
  | empty => simp
  | cons a s ha ih =>
    rw [Finset.fold_cons]
    show max (f a) _ ≤ z ↔ _
    rw [max_le_iff, ih]
    simp only [Finset.mem_cons, forall_eq_or_imp]

/-- A `multi_reduction <minimumf>` along one axis from `+∞`: its lower bounds at a result index are the lower bounds of
    the entries along that axis. -/
theorem le_rowMin_iff {s t : Shape} {a : Fin s.rank} (src : FVec Ideal s .f32) (h : s.Reduces [a] t) (hφ : FKind.Formats .f32)
    (hacc : (0x7F800000#32 : BitVec 32) = FKind.minimumf.neutral .f32 hφ) (j : t.Idx) (z : EReal) :
    z ≤ multiReduction .minimumf [a] t src 0x7F800000#32 h hφ hacc j ↔ ∀ k : Fin (s.size a), z ≤ src (h.lift j k) := by
  rw [multiReduction_minimumf_eq_fold, h.fold_filter_drop_single]
  exact (le_foldMin_iff _ _ z).trans ⟨fun H k => H k (Finset.mem_univ k), fun H k _ => H k⟩

/-- A `multi_reduction <maximumf>` along one axis from `-∞`, likewise with upper bounds. -/
theorem rowMax_le_iff {s t : Shape} {a : Fin s.rank} (src : FVec Ideal s .f32) (h : s.Reduces [a] t) (hφ : FKind.Formats .f32)
    (hacc : (0xFF800000#32 : BitVec 32) = FKind.maximumf.neutral .f32 hφ) (j : t.Idx) (z : EReal) :
    multiReduction .maximumf [a] t src 0xFF800000#32 h hφ hacc j ≤ z ↔ ∀ k : Fin (s.size a), src (h.lift j k) ≤ z := by
  rw [multiReduction_maximumf_eq_fold, h.fold_filter_drop_single]
  exact (foldMax_le_iff _ _ z).trans ⟨fun H k => H k (Finset.mem_univ k), fun H k _ => H k⟩

/-- A host reduction by `minimum` of a whole array to a scalar, from `+∞`: its lower bounds are those of every entry. -/
theorem le_hostMin_iff {s : Shape} {axes : List (Fin s.rank)} (x : FVec Ideal s .f32) (h : s.ReducesTo axes ⟨0, ![]⟩)
    (hu : 0 < (⟨0, ![]⟩ : Shape).numel) (j : (⟨0, ![]⟩ : Shape).Idx) (z : EReal) :
    z ≤ Host.reduce (FloatOps.minimumf (F := Ideal) (φ := .f32)) x (constant (F := Ideal) ⟨0, ![]⟩ .f32 0x7F800000#32) h hu j ↔ ∀ i, z ≤ x i := by
  rw [Host.reduce_eq_fold]
  exact (le_foldMin_iff _ _ z).trans
    ⟨fun H i => H i (Finset.mem_filter.mpr ⟨Finset.mem_univ _, funext fun a => a.elim0⟩), fun H i _ => H i⟩

/-- A host reduction by `maximum` of a whole array to a scalar, from `-∞`. -/
theorem hostMax_le_iff {s : Shape} {axes : List (Fin s.rank)} (x : FVec Ideal s .f32) (h : s.ReducesTo axes ⟨0, ![]⟩)
    (hu : 0 < (⟨0, ![]⟩ : Shape).numel) (j : (⟨0, ![]⟩ : Shape).Idx) (z : EReal) :
    Host.reduce (FloatOps.maximumf (F := Ideal) (φ := .f32)) x (constant (F := Ideal) ⟨0, ![]⟩ .f32 0xFF800000#32) h hu j ≤ z ↔ ∀ i, x i ≤ z := by
  rw [Host.reduce_eq_fold]
  exact (foldMax_le_iff _ _ z).trans
    ⟨fun H i => H i (Finset.mem_filter.mpr ⟨Finset.mem_univ _, funext fun a => a.elim0⟩), fun H i _ => H i⟩

end Cert.Extrema

end
-- ==== Proof.IdealPayloads.lean ====
import proofs.«158077_j41790031790570_1_alg».proof.Proof.Gen.KernelIdeal.Skeleton
import proofs.«158077_j41790031790570_1_alg».proof.Proof.Extrema
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen Cert.KernelIdeal.Facts₀ Cert.KernelIdeal.Facts

set_option maxRecDepth 65536

open Cert.Extrema

/-! # The body's arithmetic, read at an index over the extended reals

Per pixel the body computes the clamped Euclidean norm of a two-channel value; per block it takes the least and the
greatest norm (rows first, then down the column of row results), and folds them into the running extrema. -/

/-- The clamp's threshold. -/
abbrev floorLit : EReal := Ideal.ofBits .f32 0x358637BD#32

theorem lift_channel (h : S32x2x16384.Reduces [1] S32x16384) (b : Fin 32) (k : Fin 2) (r : Fin 16384) :
    h.lift (ix2 b r) k = ix3 b k r :=
  funext fun a => Fin.ext (by match a with | ⟨0, _⟩ => rfl | ⟨1, _⟩ => rfl | ⟨2, _⟩ => rfl)

theorem lift_lane (h : S32x16384.Reduces [1] S32) (b : Fin 32) (r : Fin 16384) : h.lift (ix1 b) r = ix2 b r :=
  funext fun a => Fin.ext (by match a with | ⟨0, _⟩ => rfl | ⟨1, _⟩ => rfl)

theorem lift_row (h : S32x1.Reduces [0] S1) (b : Fin 32) : h.lift (ix1 (0 : Fin 1)) b = ix2 b (0 : Fin 1) :=
  funext fun a => Fin.ext (by match a with | ⟨0, _⟩ => rfl | ⟨1, _⟩ => rfl)

/-- The clamped norm of one pixel: the square root of the two channels' squares' sum, raised to the threshold. -/
theorem clampNorm_apply (v : FVec Ideal S32x2x16384 .f32) (h : S32x2x16384.Reduces [1] S32x16384) (hφ : FKind.Formats .f32)
    (hacc : (0x00000000#32 : BitVec 32) = FKind.add.neutral .f32 hφ) (b : Fin 32) (r : Fin 16384) :
    maximumf (sqrt (multiReduction .add [1] S32x16384 (mulf v v) 0x00000000#32 h hφ hacc)) (broadcast S32x16384 (Scalar.ofBits .f32 0x358637BD#32)) (ix2 b r)
      = max (Ideal.sqrt (∑ k : Fin 2, v (ix3 b k r) * v (ix3 b k r))) floorLit := by
  show max (Ideal.sqrt (multiReduction .add [1] S32x16384 (mulf v v) 0x00000000#32 h hφ hacc (ix2 b r))) floorLit = _
  refine congrArg (fun s => max (Ideal.sqrt s) floorLit) ?_
  refine (Ideal.multiReduction_add_single _ 0x00000000#32 h hφ hacc (ix2 b r)).trans ?_
  refine Finset.sum_congr rfl fun k _ => ?_
  exact congrArg (fun i => v i * v i) (lift_channel h b k r)

theorem pay6_apply (x0 : Vec Ideal S32x2x16384 .f32) (b : Fin 32) (r : Fin 16384) :
    k0_pay6 (F := Ideal) x0 (ix2 b r) = max (Ideal.sqrt (∑ k : Fin 2, x0 (ix3 b k r) * x0 (ix3 b k r))) floorLit := by
  unfold k0_pay6
  simp only [shapeCast_self]
  exact clampNorm_apply x0 _ _ _ b r

theorem pay7_apply (x1 : Vec Ideal S32x2x16384 .f32) (b : Fin 32) (r : Fin 16384) :
    k0_pay7 (F := Ideal) x1 (ix2 b r) = max (Ideal.sqrt (∑ k : Fin 2, x1 (ix3 b k r) * x1 (ix3 b k r))) floorLit := by
  unfold k0_pay7
  simp only [shapeCast_self]
  exact clampNorm_apply x1 _ _ _ b r

/-- A block's row minima: lower bounds of row `b`'s result are those of the row's entries. -/
theorem le_rowMin (v : FVec Ideal S32x16384 .f32) (h : S32x16384.Reduces [1] S32) (hφ : FKind.Formats .f32)
    (hacc : (0x7F800000#32 : BitVec 32) = FKind.minimumf.neutral .f32 hφ) (b : Fin 32) (z : EReal) :
    z ≤ multiReduction .minimumf [1] S32 v 0x7F800000#32 h hφ hacc (ix1 b) ↔ ∀ r : Fin 16384, z ≤ v (ix2 b r) := by
  refine (le_rowMin_iff v h hφ hacc (ix1 b) z).trans ?_
  show (∀ r : Fin 16384, z ≤ v (h.lift (ix1 b) r)) ↔ _
  exact forall_congr' fun r => by rw [lift_lane h b r]

theorem rowMax_le (v : FVec Ideal S32x16384 .f32) (h : S32x16384.Reduces [1] S32) (hφ : FKind.Formats .f32)
    (hacc : (0xFF800000#32 : BitVec 32) = FKind.maximumf.neutral .f32 hφ) (b : Fin 32) (z : EReal) :
    multiReduction .maximumf [1] S32 v 0xFF800000#32 h hφ hacc (ix1 b) ≤ z ↔ ∀ r : Fin 16384, v (ix2 b r) ≤ z := by
  refine (rowMax_le_iff v h hφ hacc (ix1 b) z).trans ?_
  show (∀ r : Fin 16384, v (h.lift (ix1 b) r) ≤ z) ↔ _
  exact forall_congr' fun r => by rw [lift_lane h b r]

/-- A column of 32 row results, as the body lays it out ([32] recast to [32, 1]), read at a row. -/
theorem column_apply (w : FVec Ideal S32 .f32) (h : S32.ShapeCasts S32x1) (b : Fin 32) :
    shapeCast S32x1 w h (ix2 b (0 : Fin 1)) = w (ix1 b) :=
  shapeCast_apply w h (ix2 b 0) (ix1 b) (by rw [Shape.rowMajor_val_one, Shape.rowMajor_val_two]; show b.val = b.val * 1 + 0; omega)

/-- The one entry of a [1] vector recast to [1, 1]. -/
theorem corner_apply (w : FVec Ideal S1 .f32) (h : S1.ShapeCasts S1x1) :
    shapeCast S1x1 w h (ix2 (0 : Fin 1) (0 : Fin 1)) = w (ix1 (0 : Fin 1)) :=
  shapeCast_apply w h (ix2 0 0) (ix1 0) (by rw [Shape.rowMajor_val_one, Shape.rowMajor_val_two]; rfl)

/-- Down a column of 32: lower bounds of the column's minimum are those of its entries. -/
theorem le_colMin (u : FVec Ideal S32x1 .f32) (h : S32x1.Reduces [0] S1) (hφ : FKind.Formats .f32)
    (hacc : (0x7F800000#32 : BitVec 32) = FKind.minimumf.neutral .f32 hφ) (z : EReal) :
    z ≤ multiReduction .minimumf [0] S1 u 0x7F800000#32 h hφ hacc (ix1 (0 : Fin 1)) ↔ ∀ b : Fin 32, z ≤ u (ix2 b (0 : Fin 1)) := by
  refine (le_rowMin_iff u h hφ hacc (ix1 0) z).trans ?_
  show (∀ b : Fin 32, z ≤ u (h.lift (ix1 (0 : Fin 1)) b)) ↔ _
  exact forall_congr' fun b => by rw [lift_row h b]

theorem colMax_le (u : FVec Ideal S32x1 .f32) (h : S32x1.Reduces [0] S1) (hφ : FKind.Formats .f32)
    (hacc : (0xFF800000#32 : BitVec 32) = FKind.maximumf.neutral .f32 hφ) (z : EReal) :
    multiReduction .maximumf [0] S1 u 0xFF800000#32 h hφ hacc (ix1 (0 : Fin 1)) ≤ z ↔ ∀ b : Fin 32, u (ix2 b (0 : Fin 1)) ≤ z := by
  refine (rowMax_le_iff u h hφ hacc (ix1 0) z).trans ?_
  show (∀ b : Fin 32, u (h.lift (ix1 (0 : Fin 1)) b) ≤ z) ↔ _
  exact forall_congr' fun b => by rw [lift_row h b]

/-- The least norm of the first image's block. -/
theorem le_pay8_iff (x0 : Vec Ideal S32x2x16384 .f32) (z : EReal) :
    z ≤ k0_pay8 (F := Ideal) x0 (ix2 (0 : Fin 1) (0 : Fin 1)) ↔ ∀ (b : Fin 32) (r : Fin 16384), z ≤ k0_pay6 (F := Ideal) x0 (ix2 b r) := by
  unfold k0_pay8
  rw [corner_apply]
  refine (le_colMin _ _ _ _ z).trans (forall_congr' fun b => ?_)
  rw [column_apply]
  exact le_rowMin _ _ _ _ b z

/-- The least norm of the second image's block. -/
theorem le_pay9_iff (x1 : Vec Ideal S32x2x16384 .f32) (z : EReal) :
    z ≤ k0_pay9 (F := Ideal) x1 (ix2 (0 : Fin 1) (0 : Fin 1)) ↔ ∀ (b : Fin 32) (r : Fin 16384), z ≤ k0_pay7 (F := Ideal) x1 (ix2 b r) := by
  unfold k0_pay9
  rw [corner_apply]
  refine (le_colMin _ _ _ _ z).trans (forall_congr' fun b => ?_)
  rw [column_apply]
  exact le_rowMin _ _ _ _ b z

/-- The greatest norm of the first image's block. -/
theorem pay10_le_iff (x0 : Vec Ideal S32x2x16384 .f32) (z : EReal) :
    k0_pay10 (F := Ideal) x0 (ix2 (0 : Fin 1) (0 : Fin 1)) ≤ z ↔ ∀ (b : Fin 32) (r : Fin 16384), k0_pay6 (F := Ideal) x0 (ix2 b r) ≤ z := by
  unfold k0_pay10
  rw [corner_apply]
  refine (colMax_le _ _ _ _ z).trans (forall_congr' fun b => ?_)
  rw [column_apply]
  exact rowMax_le _ _ _ _ b z

/-- The second image's block's row maxima, still a column (its column maximum is taken where the running maximum is updated). -/
theorem pay11_le_iff (x1 : Vec Ideal S32x2x16384 .f32) (b : Fin 32) (z : EReal) :
    k0_pay11 (F := Ideal) x1 (ix2 b (0 : Fin 1)) ≤ z ↔ ∀ r : Fin 16384, k0_pay7 (F := Ideal) x1 (ix2 b r) ≤ z := by
  unfold k0_pay11
  rw [column_apply]
  exact rowMax_le _ _ _ _ b z

/-- One value spread along a row of 128 lanes. -/
theorem spread_apply (u : FVec Ideal S1x1 .f32) (h : S1x1.Broadcasts S1x128) (l : Fin 128) :
    broadcastTo S1x128 u h (ix2 (0 : Fin 1) l) = u (ix2 (0 : Fin 1) (0 : Fin 1)) :=
  broadcastTo_apply u h (ix2 0 l) (ix2 0 0) (fun a => by match a with | ⟨0, _⟩ => rfl | ⟨1, _⟩ => rfl)

/-- The running minimum's update, lane by lane: the smaller of what the row held and the block's two minima. -/
theorem le_pay1_iff (v22 v26 : FVec Ideal S1x1 .f32) (v37 : Vec Ideal S1x128 .f32) (l : Fin 128) (z : EReal) :
    z ≤ k0_pay1 (F := Ideal) v22 v26 v37 (ix2 (0 : Fin 1) l)
      ↔ z ≤ v37 (ix2 (0 : Fin 1) l) ∧ z ≤ v22 (ix2 (0 : Fin 1) (0 : Fin 1)) ∧ z ≤ v26 (ix2 (0 : Fin 1) (0 : Fin 1)) := by
  unfold k0_pay1
  simp only [shapeCast_self]
  show z ≤ min (v37 (ix2 0 l)) (broadcastTo S1x128 (minimumf v22 v26) _ (ix2 0 l)) ↔ _
  rw [spread_apply, le_min_iff]
  show _ ∧ z ≤ min (v22 (ix2 0 0)) (v26 (ix2 0 0)) ↔ _
  rw [le_min_iff]

/-- The running maximum's update, lane by lane: the greater of what the row held, the first block's maximum, and the second
    block's row maxima. -/
theorem pay2_le_iff (v30 : FVec Ideal S1x1 .f32) (v32 : FVec Ideal S32x1 .f32) (v44 : Vec Ideal S1x128 .f32) (l : Fin 128) (z : EReal) :
    k0_pay2 (F := Ideal) v30 v32 v44 (ix2 (0 : Fin 1) l) ≤ z
      ↔ v44 (ix2 (0 : Fin 1) l) ≤ z ∧ v30 (ix2 (0 : Fin 1) (0 : Fin 1)) ≤ z ∧ ∀ b : Fin 32, v32 (ix2 b (0 : Fin 1)) ≤ z := by
  unfold k0_pay2
  simp only [shapeCast_self]
  show max (v44 (ix2 0 l)) (broadcastTo S1x128 (maximumf v30 (shapeCast S1x1 _ _)) _ (ix2 0 l)) ≤ z ↔ _
  rw [spread_apply, max_le_iff]
  show _ ∧ max (v30 (ix2 0 0)) (shapeCast S1x1 _ _ (ix2 0 0)) ≤ z ↔ _
  rw [max_le_iff, corner_apply]
  exact and_congr_right fun _ => and_congr_right fun _ => colMax_le _ _ _ _ z

/-- The reset values: `+∞` in every lane of the minimum's row, `-∞` in every lane of the maximum's. -/
theorem pay4_apply (y : S1x128.Idx) : k0_pay4 (F := Ideal) y = ⊤ := by
  unfold k0_pay4
  simp only [shapeCast_self]
  exact posInf

theorem pay5_apply (y : S1x128.Idx) : k0_pay5 (F := Ideal) y = ⊥ := by
  unfold k0_pay5
  simp only [shapeCast_self]
  exact negInf

end Cert.KernelIdeal.Pay

end
-- ==== Proof.Spec.lean ====
import Idealize.ShloMosaic.PureOps.Ideal.Laws
import Idealize.ShloMosaic.Lib.ValueIdx

noncomputable section

/-! # The norm image of a two-channel image

For an image `X` of shape [32, 2, 512, 512] the norm image has shape [32, 262144]: at sample `b` and flattened pixel `n` it holds
the Euclidean norm of the two channel values at pixel `(n / 512, n % 512)`, raised to a small positive threshold. -/

namespace Cert.Spec

open Idealize.ShloMosaic

abbrev Img : Shape := ⟨4, ![32, 2, 512, 512]⟩
abbrev Pix : Shape := ⟨2, ![32, 262144]⟩

/-- The clamp's threshold. -/
abbrev floorLit : EReal := Ideal.ofBits .f32 0x358637BD#32

/-- Where channel `k` of flattened pixel `i` sits in the image. -/
def chan (i : Pix.Idx) (k : Fin 2) : Img.Idx := fun a => match a with
  | ⟨0, _⟩ => ⟨(i 0).val, (i 0).isLt⟩
  | ⟨1, _⟩ => ⟨k.val, k.isLt⟩
  | ⟨2, _⟩ => ⟨(i 1).val / 512, by have h1 : (i 1).val < 262144 := (i 1).isLt; show (i 1).val / 512 < 512; omega⟩
  | ⟨3, _⟩ => ⟨(i 1).val % 512, by show (i 1).val % 512 < 512; omega⟩

/-- The norm image. -/
def norms (X : Img.Idx → EReal) : Pix.Idx → EReal :=
  fun i => max (Ideal.sqrt (∑ k : Fin 2, X (chan i k) * X (chan i k))) floorLit

end Cert.Spec

end
-- ==== Proof.IdealValue.lean ====
import proofs.«158077_j41790031790570_1_alg».proof.Proof.IdealPieces
import proofs.«158077_j41790031790570_1_alg».proof.Proof.IdealPayloads
import proofs.«158077_j41790031790570_1_alg».proof.Proof.Spec
import proofs.«158077_j41790031790570_1_alg».proof.Proof.Extrema
import Idealize.ShloMosaic.Lib.ValueIdx
import Idealize.ShloMosaic.Lib.Pipeline.Value
import Idealize.ShloMosaic.Lib.StableHlo.Run

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts
open Idealize.ShloMosaic.ValueIdx Cert.Spec Cert.Extrema

local notation "𝕄" => MT nD τ sig Unit (Elt Ideal) ℕ (UR sig nD τ) ℕ

variable (m : (ℓ : Loc nD τ sig) → Buf (Elt Ideal) ℓ) (ρ : Dev nD → PrngReg)

/-! # What the kernel program's region leaves in its three arrays, over the extended reals

The two magnitude arrays are the norm images of the two arguments: each grid point writes back its block of them, and the
blocks tile the arrays. The extrema array, written back once after the last point, holds the least and the greatest entry
of the two norm images: the running extrema after point `n` bound exactly the blocks of the points up to `n`. -/

/-- Where each window's block sits at grid point `t`: the images' and the magnitudes' blocks advance along the pixel axis, the
    extrema window stays put. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0 :=
  (by decide +kernel : ∀ t : Fin grid0.N, _)

/-- The region finds each image flattened along its two pixel axes. -/
theorem V_v0 (c : Dev nD) : (V m c main_v0 : S32x2x262144.Idx → EReal)
    = shapeCast S32x2x262144 (m ((c : Thread nD τ).loc main_arg0)) Facts₀.shapeCasts_S32x2x512x512_S32x2x262144 := by
  show StableHlo.after hostOps0 (fun b => m (c, b)) (Proc.devRef .tc main_v0) = _
  after_results
  rfl

theorem V_v1 (c : Dev nD) : (V m c main_v1 : S32x2x262144.Idx → EReal)
    = shapeCast S32x2x262144 (m ((c : Thread nD τ).loc main_arg1)) Facts₀.shapeCasts_S32x2x512x512_S32x2x262144 := by
  show StableHlo.after hostOps0 (fun b => m (c, b)) (Proc.devRef .tc main_v1) = _
  after_results
  rfl

/-- One entry of an input block is the image's entry at the channel and pixel the output block's entry stands for. -/
theorem blockEntryA (c : Dev nD) (t : Fin cfg0.N) (b : Fin 32) (k : Fin 2) (r : Fin 16384) :
    iblk m c 0 t (ix3 b k r) = m ((c : Thread nD τ).loc main_arg0) (chan (((cfg0.win 2).blk t).view.emb (ix2 b r)) k) := by
  show V m c main_v0 (((cfg0.win 0).blk t).view.emb (ix3 b k r)) = _
  rw [V_v0]
  obtain ⟨e0, e1, e2, -, -, -, f0, f1, -, -, -, -⟩ := idx_facts t
  have hN : t.val < 16 := lt_of_lt_of_eq t.isLt (show cfg0.N = 16 from N_0)
  have hb : b.val < 32 := b.isLt
  have hk : k.val < 2 := k.isLt
  have hr : r.val < 16384 := r.isLt
  refine shapeCast_apply _ _ _ _ ?_
  refine (Shape.rowMajor_val_four (d := ![32, 2, 512, 512]) _).trans ((?_ : _ = _).trans (Shape.rowMajor_val_three (d := ![32, 2, 262144]) _).symm)
  show ((((win0_2.index t (0 : Fin 2) * 32 + 1 * b.val) * 2 + k.val) * 512 + (win0_2.index t (1 : Fin 2) * 16384 + 1 * r.val) / 512) * 512
        + (win0_2.index t (1 : Fin 2) * 16384 + 1 * r.val) % 512)
      = ((win0_0.index t (0 : Fin 3) * 32 + 1 * b.val) * 2 + (win0_0.index t (1 : Fin 3) * 2 + 1 * k.val)) * 262144
        + (win0_0.index t (2 : Fin 3) * 16384 + 1 * r.val)
  rw [e0, e1, e2, f0, f1]
  omega

/-- The body's norm of one block entry is the norm image's entry under it. -/
theorem blockA (c : Dev nD) (t : Fin cfg0.N) (b : Fin 32) (r : Fin 16384) :
    k0_pay6 (F := Ideal) (iblk m c 0 t) (ix2 b r) = norms (m ((c : Thread nD τ).loc main_arg0)) (((cfg0.win 2).blk t).view.emb (ix2 b r)) := by
  refine (Pay.pay6_apply (iblk m c 0 t) b r).trans ?_
  refine congrArg (fun s => max (Ideal.sqrt s) floorLit) (Finset.sum_congr rfl fun k _ => ?_)
  rw [blockEntryA m c t b k r]

/-- What point `t` writes back to the magnitude array is its block of the norm image. -/
theorem flushedA (c : Dev nD) (t : Fin cfg0.N) :
    (dats m 0 c).flushed 2 t = ((cfg0.win 2).blk t).view.read (Elt Ideal) (norms (m ((c : Thread nD τ).loc main_arg0))) := by
  show (cfg0.win 2).cut (grid0.coords t) ((dats m 0 c).after 2 t) = _
  rw [after2, outsAt_A]
  funext j
  obtain ⟨b, r, rfl⟩ : ∃ (b : Fin 32) (r : Fin 16384), j = ix2 b r := ⟨j 0, j 1, eq_ix2 j⟩
  exact blockA m c t b r

theorem mem_blkA (t : Fin cfg0.N) (i : S32x262144.Idx) :
    i ∈ ((cfg0.win 2).blk t).view.set ↔ ∀ a : Fin 2, win0_2.index t a * S32x16384.size a ≤ (i a).val ∧ (i a).val < win0_2.index t a * S32x16384.size a + S32x16384.size a := by
  show i ∈ ((View.whole main_v2_0).slice (win0_2.rect t)).set ↔ _
  rw [View.set_slice_whole, Rect.mem_set_unit]
  exact Iff.rfl

/-- Every entry of the magnitude array is in the block of the point its pixel's sixteenth names. -/
theorem coverA (i : S32x262144.Idx) : ∃ t : Fin cfg0.N, (cfg0.win 2).flush t = true ∧ i ∈ ((cfg0.win 2).blk t).view.set := by
  have h0 : (i 0).val < 32 := (i 0).isLt
  have h1 : (i 1).val < 262144 := (i 1).isLt
  have hN : cfg0.N = 16 := N_0
  refine ⟨⟨(i 1).val / 16384, by rw [hN]; omega⟩, flush0_2 _, ?_⟩
  rw [mem_blkA]
  obtain ⟨-, -, -, -, -, -, f0, f1, -, -, -, -⟩ := idx_facts ⟨(i 1).val / 16384, by rw [hN]; omega⟩
  intro a
  match a with
  | ⟨0, _⟩ =>
    show win0_2.index _ (0 : Fin 2) * 32 ≤ (i 0).val ∧ (i 0).val < win0_2.index _ (0 : Fin 2) * 32 + 32
    rw [f0]; omega
  | ⟨1, _⟩ =>
    show win0_2.index _ (1 : Fin 2) * 16384 ≤ (i 1).val ∧ (i 1).val < win0_2.index _ (1 : Fin 2) * 16384 + 16384
    rw [f1]; show (i 1).val / 16384 * 16384 ≤ (i 1).val ∧ (i 1).val < (i 1).val / 16384 * 16384 + 16384; omega

/-- The magnitude array after the region: the norm image of the argument. -/
theorem finalA (c : Dev nD) : (dats m 0 c).arrAt 2 cfg0.N = norms (m ((c : Thread nD τ).loc main_arg0)) :=
  (dats m 0 c).arrAt_eq_of_cover 2 (norms (m ((c : Thread nD τ).loc main_arg0))) (fun t _ => flushedA m c t) coverA

/-- One entry of an input block is the image's entry at the channel and pixel the output block's entry stands for. -/
theorem blockEntryB (c : Dev nD) (t : Fin cfg0.N) (b : Fin 32) (k : Fin 2) (r : Fin 16384) :
    iblk m c 1 t (ix3 b k r) = m ((c : Thread nD τ).loc main_arg1) (chan (((cfg0.win 3).blk t).view.emb (ix2 b r)) k) := by
  show V m c main_v1 (((cfg0.win 1).blk t).view.emb (ix3 b k r)) = _
  rw [V_v1]
  obtain ⟨-, -, -, e0, e1, e2, -, -, f0, f1, -, -⟩ := idx_facts t
  have hN : t.val < 16 := lt_of_lt_of_eq t.isLt (show cfg0.N = 16 from N_0)
  have hb : b.val < 32 := b.isLt
  have hk : k.val < 2 := k.isLt
  have hr : r.val < 16384 := r.isLt
  refine shapeCast_apply _ _ _ _ ?_
  refine (Shape.rowMajor_val_four (d := ![32, 2, 512, 512]) _).trans ((?_ : _ = _).trans (Shape.rowMajor_val_three (d := ![32, 2, 262144]) _).symm)
  show ((((win0_3.index t (0 : Fin 2) * 32 + 1 * b.val) * 2 + k.val) * 512 + (win0_3.index t (1 : Fin 2) * 16384 + 1 * r.val) / 512) * 512
        + (win0_3.index t (1 : Fin 2) * 16384 + 1 * r.val) % 512)
      = ((win0_1.index t (0 : Fin 3) * 32 + 1 * b.val) * 2 + (win0_1.index t (1 : Fin 3) * 2 + 1 * k.val)) * 262144
        + (win0_1.index t (2 : Fin 3) * 16384 + 1 * r.val)
  rw [e0, e1, e2, f0, f1]
  omega

/-- The body's norm of one block entry is the norm image's entry under it. -/
theorem blockB (c : Dev nD) (t : Fin cfg0.N) (b : Fin 32) (r : Fin 16384) :
    k0_pay7 (F := Ideal) (iblk m c 1 t) (ix2 b r) = norms (m ((c : Thread nD τ).loc main_arg1)) (((cfg0.win 3).blk t).view.emb (ix2 b r)) := by
  refine (Pay.pay7_apply (iblk m c 1 t) b r).trans ?_
  refine congrArg (fun s => max (Ideal.sqrt s) floorLit) (Finset.sum_congr rfl fun k _ => ?_)
  rw [blockEntryB m c t b k r]

/-- What point `t` writes back to the magnitude array is its block of the norm image. -/
theorem flushedB (c : Dev nD) (t : Fin cfg0.N) :
    (dats m 0 c).flushed 3 t = ((cfg0.win 3).blk t).view.read (Elt Ideal) (norms (m ((c : Thread nD τ).loc main_arg1))) := by
  show (cfg0.win 3).cut (grid0.coords t) ((dats m 0 c).after 3 t) = _
  rw [after3, outsAt_B]
  funext j
  obtain ⟨b, r, rfl⟩ : ∃ (b : Fin 32) (r : Fin 16384), j = ix2 b r := ⟨j 0, j 1, eq_ix2 j⟩
  exact blockB m c t b r

theorem mem_blkB (t : Fin cfg0.N) (i : S32x262144.Idx) :
    i ∈ ((cfg0.win 3).blk t).view.set ↔ ∀ a : Fin 2, win0_3.index t a * S32x16384.size a ≤ (i a).val ∧ (i a).val < win0_3.index t a * S32x16384.size a + S32x16384.size a := by
  show i ∈ ((View.whole main_v2_1).slice (win0_3.rect t)).set ↔ _
  rw [View.set_slice_whole, Rect.mem_set_unit]
  exact Iff.rfl

/-- Every entry of the magnitude array is in the block of the point its pixel's sixteenth names. -/
theorem coverB (i : S32x262144.Idx) : ∃ t : Fin cfg0.N, (cfg0.win 3).flush t = true ∧ i ∈ ((cfg0.win 3).blk t).view.set := by
  have h0 : (i 0).val < 32 := (i 0).isLt
  have h1 : (i 1).val < 262144 := (i 1).isLt
  have hN : cfg0.N = 16 := N_0
  refine ⟨⟨(i 1).val / 16384, by rw [hN]; omega⟩, flush0_3 _, ?_⟩
  rw [mem_blkB]
  obtain ⟨-, -, -, -, -, -, -, -, f0, f1, -, -⟩ := idx_facts ⟨(i 1).val / 16384, by rw [hN]; omega⟩
  intro a
  match a with
  | ⟨0, _⟩ =>
    show win0_3.index _ (0 : Fin 2) * 32 ≤ (i 0).val ∧ (i 0).val < win0_3.index _ (0 : Fin 2) * 32 + 32
    rw [f0]; omega
  | ⟨1, _⟩ =>
    show win0_3.index _ (1 : Fin 2) * 16384 ≤ (i 1).val ∧ (i 1).val < win0_3.index _ (1 : Fin 2) * 16384 + 16384
    rw [f1]; show (i 1).val / 16384 * 16384 ≤ (i 1).val ∧ (i 1).val < (i 1).val / 16384 * 16384 + 16384; omega

/-- The magnitude array after the region: the norm image of the argument. -/
theorem finalB (c : Dev nD) : (dats m 0 c).arrAt 3 cfg0.N = norms (m ((c : Thread nD τ).loc main_arg1)) :=
  (dats m 0 c).arrAt_eq_of_cover 3 (norms (m ((c : Thread nD τ).loc main_arg1))) (fun t _ => flushedB m c t) coverB

/-! ## The running extrema -/

/-- Every entry of a norm image is some point's block entry. -/
theorem entry_of_pixel (i : S32x262144.Idx) :
    ∃ (t : Fin cfg0.N) (b : Fin 32) (r : Fin 16384), ((cfg0.win 2).blk t).view.emb (ix2 b r) = i ∧ ((cfg0.win 3).blk t).view.emb (ix2 b r) = i := by
  have h0 : (i 0).val < 32 := (i 0).isLt
  have h1 : (i 1).val < 262144 := (i 1).isLt
  have hN : cfg0.N = 16 := N_0
  refine ⟨⟨(i 1).val / 16384, by rw [hN]; omega⟩, ⟨(i 0).val, h0⟩, ⟨(i 1).val % 16384, by omega⟩, ?_, ?_⟩
  · obtain ⟨-, -, -, -, -, -, f0, f1, -, -, -, -⟩ := idx_facts ⟨(i 1).val / 16384, by rw [hN]; omega⟩
    funext a; apply Fin.ext
    match a with
    | ⟨0, _⟩ => show win0_2.index _ (0 : Fin 2) * 32 + 1 * (i 0).val = (i 0).val; rw [f0]; omega
    | ⟨1, _⟩ => show win0_2.index _ (1 : Fin 2) * 16384 + 1 * ((i 1).val % 16384) = (i 1).val; rw [f1]; show (i 1).val / 16384 * 16384 + 1 * ((i 1).val % 16384) = (i 1).val; omega
  · obtain ⟨-, -, -, -, -, -, -, -, f0, f1, -, -⟩ := idx_facts ⟨(i 1).val / 16384, by rw [hN]; omega⟩
    funext a; apply Fin.ext
    match a with
    | ⟨0, _⟩ => show win0_3.index _ (0 : Fin 2) * 32 + 1 * (i 0).val = (i 0).val; rw [f0]; omega
    | ⟨1, _⟩ => show win0_3.index _ (1 : Fin 2) * 16384 + 1 * ((i 1).val % 16384) = (i 1).val; rw [f1]; show (i 1).val / 16384 * 16384 + 1 * ((i 1).val % 16384) = (i 1).val; omega

/-- The running minimum after position `n`: its lower bounds are exactly the lower bounds of both blocks' norms at every point up
    to `n`. -/
theorem le_runMin_iff (c : Dev nD) : ∀ (n : ℕ) (hn : n < cfg0.N) (l : Fin 128) (z : EReal),
    z ≤ (outsAt m c n hn).2.2.2.1 (ix2 (0 : Fin 1) l)
      ↔ ∀ t : Fin cfg0.N, t.val ≤ n → ∀ (b : Fin 32) (r : Fin 16384),
          z ≤ k0_pay6 (F := Ideal) (iblk m c 0 t) (ix2 b r) ∧ z ≤ k0_pay7 (F := Ideal) (iblk m c 1 t) (ix2 b r)
  | 0, hn, l, z => by
    have e : (outsAt m c 0 hn).2.2.2.1 = k0_pay1 (k0_pay8 (iblk m c 0 ⟨0, hn⟩)) (k0_pay9 (iblk m c 1 ⟨0, hn⟩)) (k0_pay4 (F := Ideal)) :=
      outsAt_Smin_first m c ⟨0, hn⟩ rfl
    rw [e]
    refine (Pay.le_pay1_iff _ _ _ l z).trans ?_
    constructor
    · rintro ⟨-, h8, h9⟩ t ht b r
      obtain rfl : t = ⟨0, hn⟩ := Fin.ext (Nat.le_zero.mp ht)
      exact ⟨(Pay.le_pay8_iff _ z).mp h8 b r, (Pay.le_pay9_iff _ z).mp h9 b r⟩
    · intro h
      refine ⟨by rw [Pay.pay4_apply]; exact le_top, (Pay.le_pay8_iff _ z).mpr fun b r => (h ⟨0, hn⟩ (Nat.le_refl 0) b r).1,
        (Pay.le_pay9_iff _ z).mpr fun b r => (h ⟨0, hn⟩ (Nat.le_refl 0) b r).2⟩
  | n + 1, hn, l, z => by
    have e : (outsAt m c (n + 1) hn).2.2.2.1
        = k0_pay1 (k0_pay8 (iblk m c 0 ⟨n + 1, hn⟩)) (k0_pay9 (iblk m c 1 ⟨n + 1, hn⟩)) (outsAt m c n (Nat.lt_of_succ_lt hn)).2.2.2.1 :=
      outsAt_Smin_next m c ⟨n + 1, hn⟩ (Nat.succ_ne_zero n)
    rw [e]
    refine (Pay.le_pay1_iff _ _ _ l z).trans ?_
    rw [le_runMin_iff c n (Nat.lt_of_succ_lt hn) l z]
    constructor
    · rintro ⟨hprev, h8, h9⟩ t ht b r
      by_cases hlast : t.val = n + 1
      · obtain rfl : t = ⟨n + 1, hn⟩ := Fin.ext hlast
        exact ⟨(Pay.le_pay8_iff _ z).mp h8 b r, (Pay.le_pay9_iff _ z).mp h9 b r⟩
      · exact hprev t (by omega) b r
    · intro h
      exact ⟨fun t ht b r => h t (by omega) b r, (Pay.le_pay8_iff _ z).mpr fun b r => (h ⟨n + 1, hn⟩ (Nat.le_refl _) b r).1,
        (Pay.le_pay9_iff _ z).mpr fun b r => (h ⟨n + 1, hn⟩ (Nat.le_refl _) b r).2⟩

/-- The running maximum after position `n`, likewise with upper bounds. -/
theorem runMax_le_iff (c : Dev nD) : ∀ (n : ℕ) (hn : n < cfg0.N) (l : Fin 128) (z : EReal),
    (outsAt m c n hn).2.2.2.2 (ix2 (0 : Fin 1) l) ≤ z
      ↔ ∀ t : Fin cfg0.N, t.val ≤ n → ∀ (b : Fin 32) (r : Fin 16384),
          k0_pay6 (F := Ideal) (iblk m c 0 t) (ix2 b r) ≤ z ∧ k0_pay7 (F := Ideal) (iblk m c 1 t) (ix2 b r) ≤ z
  | 0, hn, l, z => by
    have e : (outsAt m c 0 hn).2.2.2.2 = k0_pay2 (k0_pay10 (iblk m c 0 ⟨0, hn⟩)) (k0_pay11 (iblk m c 1 ⟨0, hn⟩)) (k0_pay5 (F := Ideal)) :=
      outsAt_Smax_first m c ⟨0, hn⟩ rfl
    rw [e]
    refine (Pay.pay2_le_iff _ _ _ l z).trans ?_
    constructor
    · rintro ⟨-, h10, h11⟩ t ht b r
      obtain rfl : t = ⟨0, hn⟩ := Fin.ext (Nat.le_zero.mp ht)
      exact ⟨(Pay.pay10_le_iff _ z).mp h10 b r, (Pay.pay11_le_iff _ b z).mp (h11 b) r⟩
    · intro h
      refine ⟨by rw [Pay.pay5_apply]; exact bot_le, (Pay.pay10_le_iff _ z).mpr fun b r => (h ⟨0, hn⟩ (Nat.le_refl 0) b r).1,
        fun b => (Pay.pay11_le_iff _ b z).mpr fun r => (h ⟨0, hn⟩ (Nat.le_refl 0) b r).2⟩
  | n + 1, hn, l, z => by
    have e : (outsAt m c (n + 1) hn).2.2.2.2
        = k0_pay2 (k0_pay10 (iblk m c 0 ⟨n + 1, hn⟩)) (k0_pay11 (iblk m c 1 ⟨n + 1, hn⟩)) (outsAt m c n (Nat.lt_of_succ_lt hn)).2.2.2.2 :=
      outsAt_Smax_next m c ⟨n + 1, hn⟩ (Nat.succ_ne_zero n)
    rw [e]
    refine (Pay.pay2_le_iff _ _ _ l z).trans ?_
    rw [runMax_le_iff c n (Nat.lt_of_succ_lt hn) l z]
    constructor
    · rintro ⟨hprev, h10, h11⟩ t ht b r
      by_cases hlast : t.val = n + 1
      · obtain rfl : t = ⟨n + 1, hn⟩ := Fin.ext hlast
        exact ⟨(Pay.pay10_le_iff _ z).mp h10 b r, (Pay.pay11_le_iff _ b z).mp (h11 b) r⟩
      · exact hprev t (by omega) b r
    · intro h
      exact ⟨fun t ht b r => h t (by omega) b r, (Pay.pay10_le_iff _ z).mpr fun b r => (h ⟨n + 1, hn⟩ (Nat.le_refl _) b r).1,
        fun b => (Pay.pay11_le_iff _ b z).mpr fun r => (h ⟨n + 1, hn⟩ (Nat.le_refl _) b r).2⟩

/-- After the last point every lane of the minimum's row holds the least entry of the two norm images. -/
theorem runMin_last (c : Dev nD) (t : Fin cfg0.N) (h15 : t.val = 15) (l : Fin 128) :
    (outsAt m c t.val t.isLt).2.2.2.1 (ix2 (0 : Fin 1) l)
      = lowest (norms (m ((c : Thread nD τ).loc main_arg0))) (norms (m ((c : Thread nD τ).loc main_arg1))) := by
  refine eq_lowest _ _ _ fun z => (le_runMin_iff m c t.val t.isLt l z).trans ?_
  have hN : cfg0.N = 16 := N_0
  constructor
  · intro h i
    obtain ⟨t', b, r, eA, eB⟩ := entry_of_pixel i
    have ht : t'.val ≤ t.val := by have := t'.isLt; omega
    have := h t' ht b r
    rw [blockA m c t' b r, blockB m c t' b r, eA, eB] at this
    exact this
  · intro h t' _ b r
    rw [blockA m c t' b r, blockB m c t' b r]
    exact ⟨(h _).1, (h _).2⟩

/-- And every lane of the maximum's row the greatest. -/
theorem runMax_last (c : Dev nD) (t : Fin cfg0.N) (h15 : t.val = 15) (l : Fin 128) :
    (outsAt m c t.val t.isLt).2.2.2.2 (ix2 (0 : Fin 1) l)
      = highest (norms (m ((c : Thread nD τ).loc main_arg0))) (norms (m ((c : Thread nD τ).loc main_arg1))) := by
  refine eq_highest _ _ _ fun z => (runMax_le_iff m c t.val t.isLt l z).trans ?_
  have hN : cfg0.N = 16 := N_0
  constructor
  · intro h i
    obtain ⟨t', b, r, eA, eB⟩ := entry_of_pixel i
    have ht : t'.val ≤ t.val := by have := t'.isLt; omega
    have := h t' ht b r
    rw [blockA m c t' b r, blockB m c t' b r, eA, eB] at this
    exact this
  · intro h t' _ b r
    rw [blockA m c t' b r, blockB m c t' b r]
    exact ⟨(h _).1, (h _).2⟩

end Cert.KernelIdeal.Hand

end
-- ==== Proof.Tail.lean ====
import proofs.«158077_j41790031790570_1_alg».proof.ReferenceIdeal
import proofs.«158077_j41790031790570_1_alg».proof.Proof.Gen.ReferenceIdeal

noncomputable section

/-! # What both programs do with the two norm images and their common range

Per image: shift by the least value, scale so that the range spans fifty bins, take the floor, clip the bin number to
`0 … 49`, offset it by fifty times the sample's number, count the pixels of each (sample, bin) by a scatter-add of ones, and add
a small constant to every count. Then each sample's counts are normalised to sum to one, and the samples' Kullback–Leibler
divergences of the second image's histogram from the first's are averaged. Both programs apply exactly these operations, with
the same literals, so they are carried as two functions that are never opened. -/

namespace Cert.Tail

open Idealize.ShloMosaic Cert.ReferenceIdeal Cert.ReferenceIdeal.Facts₀ Cert.ReferenceIdeal.Facts

variable {F : FTy → Type} [FloatOps F]

/-- One image's per-sample histogram over the range `[lo, hi]`, every count raised by the small constant. -/
def histogram (v : (⟨S32x262144, .f32⟩ : BufTy).Contents (Elt F)) (lo hi : (⟨S_, .f32⟩ : BufTy).Contents (Elt F)) :
    (⟨S32x50, .f32⟩ : BufTy).Contents (Elt F) :=
  addf
    (shapeCast _
      (Host.scatterAdd scatter_S1600_S8388608x1_S8388608_n_0_0_1
        (broadcastInDim S1600 ![] bcast_S_S1600 (constant S_ .f32 0x00000000#32))
        (broadcastInDim S8388608x1 ![0] bcast_S8388608_S8388608x1_0
          (shapeCast _
            (addi
              (minsi (broadcastInDim S32x262144 ![] bcast_S_S32x262144 (id (constantI S_ 32 49#32)))
                (maxsi (broadcastInDim S32x262144 ![] bcast_S_S32x262144 (id (constantI S_ 32 0#32)))
                  (fptosi 32
                    (Host.floor
                      (mulf (subf v (broadcastInDim S32x262144 ![] bcast_S_S32x262144 lo))
                        (broadcastInDim S32x262144 ![] bcast_S_S32x262144
                          (Host.divf (constant S_ .f32 0x42480000#32) (subf hi lo))))))))
              (broadcastInDim S32x262144 ![0, 1] bcast_S32x1_S32x262144_0_1
                (muli (broadcastInDim S32x1 ![0] bcast_S32_S32x1_0 (iotaInDim S32 32 0))
                  (broadcastInDim S32x1 ![] bcast_S_S32x1 (constantI S_ 32 50#32)))))
            shapeCasts_S32x262144_S8388608))
        (broadcastInDim S8388608 ![] bcast_S_S8388608 (constant S_ .f32 0x3F800000#32)))
      shapeCasts_S1600_S32x50)
    (broadcastInDim S32x50 ![] bcast_S_S32x50 (constant S_ .f32 0x322BCC77#32))

/-- A histogram with every sample's row divided by its sum. -/
def normalised (h : (⟨S32x50, .f32⟩ : BufTy).Contents (Elt F)) : (⟨S32x50, .f32⟩ : BufTy).Contents (Elt F) :=
  Host.divf h
    (broadcastInDim S32x50 ![0, 1] bcast_S32x1_S32x50_0_1
      (broadcastInDim S32x1 ![0] bcast_S32_S32x1_0
        (Host.reduceAdd h (constant S_ .f32 0x00000000#32) reducesTo_S32x50_S32_d1 h_S_)))

/-- The samples' mean divergence of the second histogram from the first. -/
def divergence (hp ht : (⟨S32x50, .f32⟩ : BufTy).Contents (Elt F)) : (⟨S_, .f32⟩ : BufTy).Contents (Elt F) :=
  Host.divf
    (Host.reduceAdd
      (Host.reduceAdd
        (mulf (normalised ht) (Host.log (Host.divf (normalised ht) (normalised hp))))
        (constant S_ .f32 0x00000000#32) reducesTo_S32x50_S32_d1 h_S_)
      (constant S_ .f32 0x00000000#32) reducesTo_S32_S_d0 h_S_)
    (constant S_ .f32 0x42000000#32)

/-- The whole of it: from the two norm images and their common range to the program's one result. -/
def result (vp vt : (⟨S32x262144, .f32⟩ : BufTy).Contents (Elt F)) (lo hi : (⟨S_, .f32⟩ : BufTy).Contents (Elt F)) :
    (⟨S_, .f32⟩ : BufTy).Contents (Elt F) :=
  divergence (histogram vp lo hi) (histogram vt lo hi)

end Cert.Tail

end
-- ==== Proof.IdealResult.lean ====
import proofs.«158077_j41790031790570_1_alg».proof.Proof.IdealValue
import proofs.«158077_j41790031790570_1_alg».proof.Proof.Tail

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts
open Idealize.ShloMosaic.ValueIdx Cert.Spec Cert.Extrema

local notation "𝕄" => MT nD τ sig Unit (Elt Ideal) ℕ (UR sig nD τ) ℕ

variable (m : (ℓ : Loc nD τ sig) → Buf (Elt Ideal) ℓ) (ρ : Dev nD → PrngReg)

/-! # The kernel program's result -/

/-- Two values side by side in a [1, 2] array. -/
def pair (lo hi : EReal) : S1x2.Idx → EReal := fun i => if (i 1).val = 0 then lo else hi

/-- The left half of two [1, 1] values joined along the second axis is the first value, -/
theorem join_left {α : Type} (a b : S1x1.Idx → α) (h : Shape.Concatenates [S1x1, S1x1] S1x2 1) :
    concatenate S1x2 1 [⟨S1x1, a⟩, ⟨S1x1, b⟩] h (ix2 (0 : Fin 1) (0 : Fin 2)) = a (ix2 (0 : Fin 1) (0 : Fin 1)) :=
  concatenate_apply_piece (t := S1x2) 1 [⟨S1x1, a⟩, ⟨S1x1, b⟩] h (ix2 0 0) 0 (Nat.zero_lt_succ _) S1x1 a rfl rfl 0 rfl (ix2 0 0)
    (fun d hd => by match d with | ⟨0, _⟩ => rfl | ⟨1, _⟩ => exact absurd rfl hd) rfl

/-- and the right half the second. -/
theorem join_right {α : Type} (a b : S1x1.Idx → α) (h : Shape.Concatenates [S1x1, S1x1] S1x2 1) :
    concatenate S1x2 1 [⟨S1x1, a⟩, ⟨S1x1, b⟩] h (ix2 (0 : Fin 1) (1 : Fin 2)) = b (ix2 (0 : Fin 1) (0 : Fin 1)) :=
  concatenate_apply_piece (t := S1x2) 1 [⟨S1x1, a⟩, ⟨S1x1, b⟩] h (ix2 0 1) 1 (Nat.lt_succ_self _) S1x1 b rfl rfl 1 rfl (ix2 0 0)
    (fun d hd => by match d with | ⟨0, _⟩ => rfl | ⟨1, _⟩ => exact absurd rfl hd) rfl

/-- The first lane of a row is its entry at lane 0. -/
theorem corner_first (w : Vec Ideal S1x128 .f32) : corner w (ix2 (0 : Fin 1) (0 : Fin 1)) = w (ix2 (0 : Fin 1) (0 : Fin 128)) :=
  congrArg w (funext fun a => Fin.ext (by match a with | ⟨0, _⟩ => rfl | ⟨1, _⟩ => rfl))

/-- The write-out's value, entry by entry: the two rows' first lanes side by side. -/
theorem writeOut_apply (S S' : Vec Ideal S1x128 .f32) (lo hi : EReal)
    (hlo : S (ix2 (0 : Fin 1) (0 : Fin 128)) = lo) (hhi : S' (ix2 (0 : Fin 1) (0 : Fin 128)) = hi) (j : S1x2.Idx) :
    k0_pay3 (F := Ideal) (corner S) (corner S') j = pair lo hi j := by
  obtain ⟨a, q, rfl⟩ : ∃ (a : Fin 1) (q : Fin 2), j = ix2 a q := ⟨j 0, j 1, eq_ix2 j⟩
  obtain rfl : a = 0 := Subsingleton.elim _ _
  unfold k0_pay3
  fin_cases q
  · refine (join_left _ _ _).trans ?_
    rw [corner_first, hlo]; rfl
  · refine (join_right _ _ _).trans ?_
    rw [corner_first, hhi]; rfl

/-- What the last point writes back to the extrema array: the least and the greatest norm, side by side. -/
theorem flushedE (c : Dev nD) (t : Fin cfg0.N) (hf : (cfg0.win 4).flush t = true) :
    (dats m 0 c).flushed 4 t = ((cfg0.win 4).blk t).view.read (Elt Ideal)
      (pair (lowest (norms (m ((c : Thread nD τ).loc main_arg0))) (norms (m ((c : Thread nD τ).loc main_arg1))))
        (highest (norms (m ((c : Thread nD τ).loc main_arg0))) (norms (m ((c : Thread nD τ).loc main_arg1))))) := by
  have hN : cfg0.N = 16 := N_0
  have h15 : t.val = 15 := by have h := (flush0_4 t).mp hf; have := t.isLt; omega
  obtain ⟨-, -, -, -, -, -, -, -, -, -, g0, g1⟩ := idx_facts t
  show (cfg0.win 4).cut (grid0.coords t) ((dats m 0 c).after 4 t) = _
  rw [after4, outsAt_E_last m c t h15]
  have hlo : (outsAt m c t.val t.isLt).2.2.2.1 (ix2 (0 : Fin 1) (0 : Fin 128))
      = lowest (norms (m ((c : Thread nD τ).loc main_arg0))) (norms (m ((c : Thread nD τ).loc main_arg1))) := by
    exact runMin_last m c t h15 0
  have hhi : (outsAt m c t.val t.isLt).2.2.2.2 (ix2 (0 : Fin 1) (0 : Fin 128))
      = highest (norms (m ((c : Thread nD τ).loc main_arg0))) (norms (m ((c : Thread nD τ).loc main_arg1))) := by
    exact runMax_last m c t h15 0
  funext j
  have hj0 : (j 0).val < 1 := (j 0).isLt
  have hj1 : (j 1).val < 2 := (j 1).isLt
  have hemb : ((cfg0.win 4).blk t).view.emb j = j := by
    funext a; apply Fin.ext
    match a with
    | ⟨0, _⟩ => show win0_4.index t (0 : Fin 2) * 1 + 1 * (j 0).val = (j 0).val; rw [g0]; omega
    | ⟨1, _⟩ => show win0_4.index t (1 : Fin 2) * 2 + 1 * (j 1).val = (j 1).val; rw [g1]; omega
  show k0_pay3 (F := Ideal) (corner _) (corner _) j = pair _ _ (((cfg0.win 4).blk t).view.emb j)
  rw [hemb]
  exact writeOut_apply _ _ _ _ hlo hhi j

theorem mem_blkE (t : Fin cfg0.N) (i : S1x2.Idx) :
    i ∈ ((cfg0.win 4).blk t).view.set ↔ ∀ a : Fin 2, win0_4.index t a * S1x2.size a ≤ (i a).val ∧ (i a).val < win0_4.index t a * S1x2.size a + S1x2.size a := by
  show i ∈ ((View.whole main_v2_2).slice (win0_4.rect t)).set ↔ _
  rw [View.set_slice_whole, Rect.mem_set_unit]
  exact Iff.rfl

/-- The one write-back covers the whole extrema array. -/
theorem coverE (i : S1x2.Idx) : ∃ t : Fin cfg0.N, (cfg0.win 4).flush t = true ∧ i ∈ ((cfg0.win 4).blk t).view.set := by
  have hN : cfg0.N = 16 := N_0
  have h0 : (i 0).val < 1 := (i 0).isLt
  have h1 : (i 1).val < 2 := (i 1).isLt
  refine ⟨⟨15, by rw [hN]; decide⟩, (flush0_4 _).mpr (show 15 % 16 = 15 from rfl), ?_⟩
  rw [mem_blkE]
  obtain ⟨-, -, -, -, -, -, -, -, -, -, g0, g1⟩ := idx_facts ⟨15, by rw [hN]; decide⟩
  intro a
  match a with
  | ⟨0, _⟩ => show win0_4.index _ (0 : Fin 2) * 1 ≤ (i 0).val ∧ (i 0).val < win0_4.index _ (0 : Fin 2) * 1 + 1; rw [g0]; omega
  | ⟨1, _⟩ => show win0_4.index _ (1 : Fin 2) * 2 ≤ (i 1).val ∧ (i 1).val < win0_4.index _ (1 : Fin 2) * 2 + 2; rw [g1]; omega

/-- The extrema array after the region. -/
theorem finalE (c : Dev nD) : (dats m 0 c).arrAt 4 cfg0.N
    = pair (lowest (norms (m ((c : Thread nD τ).loc main_arg0))) (norms (m ((c : Thread nD τ).loc main_arg1))))
        (highest (norms (m ((c : Thread nD τ).loc main_arg0))) (norms (m ((c : Thread nD τ).loc main_arg1)))) :=
  (dats m 0 c).arrAt_eq_of_cover 4 _ (fun t hf => flushedE m c t hf) coverE

/-! ## The host operations after the region -/

/-- The range's lower end as the host reads it off the extrema array, -/
def lowOf (E : (⟨S1x2, .f32⟩ : BufTy).Contents (Elt Ideal)) : (⟨S_, .f32⟩ : BufTy).Contents (Elt Ideal) :=
  shapeCast S_ (extractStridedSlice S1x1 ![0, 0] E Facts₀.slices_S1x2_S1x1_0_0) Facts₀.shapeCasts_S1x1_S_
/-- and its upper end. -/
def highOf (E : (⟨S1x2, .f32⟩ : BufTy).Contents (Elt Ideal)) : (⟨S_, .f32⟩ : BufTy).Contents (Elt Ideal) :=
  shapeCast S_ (extractStridedSlice S1x1 ![0, 1] E Facts₀.slices_S1x2_S1x1_0_1) Facts₀.shapeCasts_S1x1_S_

theorem lowOf_pair (lo hi : EReal) : lowOf (pair lo hi) = fun _ => lo := by
  funext i
  unfold lowOf
  refine (shapeCast_apply _ _ i (ix2 (0 : Fin 1) (0 : Fin 1)) (by rw [Shape.rowMajor_val_two]; exact (Nat.lt_one_iff.mp (S_.rowMajor i).isLt).symm ▸ rfl)).trans ?_
  refine (extractStridedSlice_apply _ _ _ (ix2 (0 : Fin 1) (0 : Fin 1)) (ix2 (0 : Fin 1) (0 : Fin 2)) (fun a => by match a with | ⟨0, _⟩ => rfl | ⟨1, _⟩ => rfl)).trans ?_
  rfl

theorem highOf_pair (lo hi : EReal) : highOf (pair lo hi) = fun _ => hi := by
  funext i
  unfold highOf
  refine (shapeCast_apply _ _ i (ix2 (0 : Fin 1) (0 : Fin 1)) (by rw [Shape.rowMajor_val_two]; exact (Nat.lt_one_iff.mp (S_.rowMajor i).isLt).symm ▸ rfl)).trans ?_
  refine (extractStridedSlice_apply _ _ _ (ix2 (0 : Fin 1) (0 : Fin 1)) (ix2 (0 : Fin 1) (1 : Fin 2)) (fun a => by match a with | ⟨0, _⟩ => rfl | ⟨1, _⟩ => rfl)).trans ?_
  rfl

set_option maxHeartbeats 4000000 in
/-- The later host operations compute the shared arithmetic of the two magnitude arrays and of the two ends read off the
    extrema array, whatever the buffers hold when they start. -/
theorem tail_value (W : Valuation τ sig (Elt Ideal)) :
    StableHlo.after (List.flatten (tailOps (F := Ideal))) W (Proc.devRef .tc main_v66)
      = Cert.Tail.result (F := Ideal) (W (Proc.devRef .tc main_v2_0)) (W (Proc.devRef .tc main_v2_1))
          (lowOf (W (Proc.devRef .tc main_v2_2))) (highOf (W (Proc.devRef .tc main_v2_2))) := by
  simp only [tailOps, hostOps1, hostOps1_1, hostOps1_2, hostOps1_3, hostOps1_4, List.flatten_cons, List.flatten_nil, List.append_nil,
    List.cons_append, List.nil_append]
  after_results_simp <;> rfl

/-- The program's result buffer after the run. -/
theorem result_value (c : Dev nD) :
    Pipeline.afterTail₀ cfgs (dats m) 0 (V0 m) tailOps c main_v66
      = Cert.Tail.result (F := Ideal) (norms (m ((c : Thread nD τ).loc main_arg0))) (norms (m ((c : Thread nD τ).loc main_arg1)))
          (fun _ => lowest (norms (m ((c : Thread nD τ).loc main_arg0))) (norms (m ((c : Thread nD τ).loc main_arg1))))
          (fun _ => highest (norms (m ((c : Thread nD τ).loc main_arg0))) (norms (m ((c : Thread nD τ).loc main_arg1)))) := by
  unfold Pipeline.afterTail₀
  rw [tail_value]
  have eA : Pipeline.withArrays spec0 c (V0 m c) (fun w => (dats m 0 c).arrAt w cfg0.N) (Proc.devRef .tc main_v2_0)
      = norms (m ((c : Thread nD τ).loc main_arg0)) :=
    (Pipeline.withArrays_arr spec0 launch0.win.arr_inj c _ _ 2).trans (finalA m c)
  have eB : Pipeline.withArrays spec0 c (V0 m c) (fun w => (dats m 0 c).arrAt w cfg0.N) (Proc.devRef .tc main_v2_1)
      = norms (m ((c : Thread nD τ).loc main_arg1)) :=
    (Pipeline.withArrays_arr spec0 launch0.win.arr_inj c _ _ 3).trans (finalB m c)
  have eE : Pipeline.withArrays spec0 c (V0 m c) (fun w => (dats m 0 c).arrAt w cfg0.N) (Proc.devRef .tc main_v2_2)
      = pair (lowest (norms (m ((c : Thread nD τ).loc main_arg0))) (norms (m ((c : Thread nD τ).loc main_arg1))))
          (highest (norms (m ((c : Thread nD τ).loc main_arg0))) (norms (m ((c : Thread nD τ).loc main_arg1)))) :=
    (Pipeline.withArrays_arr spec0 launch0.win.arr_inj c _ _ 4).trans (finalE m c)
  rw [eA, eB, eE, lowOf_pair, highOf_pair]

/-- The kernel program's run with its result named: the shared arithmetic of the arguments' norm images and of their least and
    greatest entries; the arguments are left alone. -/
theorem run_value : θ_run defs (onTc (τ := τ) (main (F := Ideal))) ⟨m, fun _ => 0, ρ⟩ (fun r => ∀ c : Dev nD,
      r.2.mem ((c.tc : Thread nD τ).loc main_v66)
        = Cert.Tail.result (F := Ideal) (norms (m ((c : Thread nD τ).loc main_arg0))) (norms (m ((c : Thread nD τ).loc main_arg1)))
            (fun _ => lowest (norms (m ((c : Thread nD τ).loc main_arg0))) (norms (m ((c : Thread nD τ).loc main_arg1))))
            (fun _ => highest (norms (m ((c : Thread nD τ).loc main_arg0))) (norms (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v66 (Pipeline.mem_restRefs_of main_v66 (by decide) (by decide))).trans (result_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main (F := Ideal) m ρ)

end Cert.KernelIdeal.Hand

end
-- ==== Proof.RefValue.lean ====
import proofs.«158077_j41790031790570_1_alg».proof.Proof.Gen.ReferenceIdeal.Read
import proofs.«158077_j41790031790570_1_alg».proof.Proof.Tail
import proofs.«158077_j41790031790570_1_alg».proof.Proof.Spec
import proofs.«158077_j41790031790570_1_alg».proof.Proof.Extrema
import Idealize.ShloMosaic.Lib.ValueIdx
import Idealize.ShloMosaic.Lib.Pipeline.Value

set_option maxRecDepth 65536

noncomputable section

/-! # The reference's result, read: the shared host arithmetic applied to the two norm images and their extrema -/

namespace Cert.ReferenceIdeal.RefValue

open Idealize.ShloMosaic Idealize.ShloMosaic.ValueIdx Idealize.SL.Sem
open Cert.ReferenceIdeal Cert.ReferenceIdeal.Read Cert.Spec Cert.Extrema

/-- Everything after the extrema is the shared arithmetic. -/
theorem result_eq (x0 x1 : (⟨S32x2x512x512, .f32⟩ : BufTy).Contents (Elt Ideal)) :
    val_main_v77 (F := Ideal) x0 x1
      = Cert.Tail.result (F := Ideal) (val_main_v5 (F := Ideal) x0) (val_main_v11 (F := Ideal) x1) (val_main_v14 (F := Ideal) x0 x1) (val_main_v17 (F := Ideal) x0 x1) :=
  rfl

/-- Read's composed index maps name the channel entry of a flattened pixel. -/
theorem idx_chan0 (i : S32x262144.Idx) (k : Fin 2) : idx_main_v1 (idx_main_v5 i) k = chan i k :=
  funext fun a => Fin.ext (by
    have h0 : (i 0).val < 32 := (i 0).isLt
    have h1 : (i 1).val < 262144 := (i 1).isLt
    match a with
    | ⟨0, _⟩ => show ((i 0).val * 262144 + (i 1).val) / 262144 = (i 0).val; omega
    | ⟨1, _⟩ => rfl
    | ⟨2, _⟩ => show ((i 0).val * 262144 + (i 1).val) / 512 % 512 = (i 1).val / 512; omega
    | ⟨3, _⟩ => show ((i 0).val * 262144 + (i 1).val) % 512 = (i 1).val % 512; omega)

theorem idx_chan1 (i : S32x262144.Idx) (k : Fin 2) : idx_main_v7 (idx_main_v11 i) k = chan i k :=
  funext fun a => Fin.ext (by
    have h0 : (i 0).val < 32 := (i 0).isLt
    have h1 : (i 1).val < 262144 := (i 1).isLt
    match a with
    | ⟨0, _⟩ => show ((i 0).val * 262144 + (i 1).val) / 262144 = (i 0).val; omega
    | ⟨1, _⟩ => rfl
    | ⟨2, _⟩ => show ((i 0).val * 262144 + (i 1).val) / 512 % 512 = (i 1).val / 512; omega
    | ⟨3, _⟩ => show ((i 0).val * 262144 + (i 1).val) % 512 = (i 1).val % 512; omega)

/-- The reference's first norm image is the norm image of its first argument. -/
theorem v5_eq (x0 : (⟨S32x2x512x512, .f32⟩ : BufTy).Contents (Elt Ideal)) : val_main_v5 (F := Ideal) x0 = norms x0 := by
  funext i
  rw [val_main_v5_apply, val_main_v4_apply, val_main_v2_apply, val_main_v1_apply, val_main_v3_apply]
  simp only [val_main_cst_apply, val_main_cst_0_apply, val_main_v0_apply, idx_chan0, Ideal.maximumf_def, Ideal.hostUnary_sqrt_def,
    Ideal.mulf_def, Ideal.ofBits_def, Ideal.ofBits_zero_f32, zero_add]
  rfl

theorem v11_eq (x1 : (⟨S32x2x512x512, .f32⟩ : BufTy).Contents (Elt Ideal)) : val_main_v11 (F := Ideal) x1 = norms x1 := by
  funext i
  rw [val_main_v11_apply, val_main_v10_apply, val_main_v8_apply, val_main_v7_apply, val_main_v9_apply]
  simp only [val_main_cst_1_apply, val_main_cst_2_apply, val_main_v6_apply, idx_chan1, Ideal.maximumf_def, Ideal.hostUnary_sqrt_def,
    Ideal.mulf_def, Ideal.ofBits_def, Ideal.ofBits_zero_f32, zero_add]
  rfl

/-- The reference's least value: the smaller of the two images' whole-array minima is the least norm of the two images. -/
theorem v14_eq (x0 x1 : (⟨S32x2x512x512, .f32⟩ : BufTy).Contents (Elt Ideal)) (i : S_.Idx) :
    val_main_v14 (F := Ideal) x0 x1 i = lowest (norms x0) (norms x1) := by
  refine eq_lowest _ _ _ fun z => ?_
  rw [val_main_v14_apply]
  show z ≤ min (val_main_v12 (F := Ideal) x0 i) (val_main_v13 (F := Ideal) x1 i) ↔ _
  rw [le_min_iff]
  unfold val_main_v12 val_main_v13 val_main_cst_3 val_main_cst_4
  rw [le_hostMin_iff, le_hostMin_iff, v5_eq, v11_eq]
  exact ⟨fun h j => ⟨h.1 j, h.2 j⟩, fun h => ⟨fun j => (h j).1, fun j => (h j).2⟩⟩

/-- The reference's greatest value likewise. -/
theorem v17_eq (x0 x1 : (⟨S32x2x512x512, .f32⟩ : BufTy).Contents (Elt Ideal)) (i : S_.Idx) :
    val_main_v17 (F := Ideal) x0 x1 i = highest (norms x0) (norms x1) := by
  refine eq_highest _ _ _ fun z => ?_
  rw [val_main_v17_apply]
  show max (val_main_v15 (F := Ideal) x0 i) (val_main_v16 (F := Ideal) x1 i) ≤ z ↔ _
  rw [max_le_iff]
  unfold val_main_v15 val_main_v16 val_main_cst_5 val_main_cst_6
  rw [hostMax_le_iff, hostMax_le_iff, v5_eq, v11_eq]
  exact ⟨fun h j => ⟨h.1 j, h.2 j⟩, fun h => ⟨fun j => (h j).1, fun j => (h j).2⟩⟩

/-- The reference's result as the shared arithmetic of the norm images of its arguments and their extrema. -/
theorem result_spec (x0 x1 : (⟨S32x2x512x512, .f32⟩ : BufTy).Contents (Elt Ideal)) :
    val_main_v77 (F := Ideal) x0 x1
      = Cert.Tail.result (F := Ideal) (norms x0) (norms x1) (fun _ => lowest (norms x0) (norms x1)) (fun _ => highest (norms x0) (norms x1)) := by
  rw [result_eq, v5_eq, v11_eq, show val_main_v14 (F := Ideal) x0 x1 = fun _ => lowest (norms x0) (norms x1) from funext (v14_eq x0 x1),
    show val_main_v17 (F := Ideal) x0 x1 = fun _ => highest (norms x0) (norms x1) from funext (v17_eq x0 x1)]

end Cert.ReferenceIdeal.RefValue

end
-- ==== Proof.lean ====
/- The five claims about the clamped-magnitude kernel and its reference.

   The kernel streams two [32, 2, 262144] images block by block, writes the clamped per-pixel Euclidean norm of each, and
   keeps the least and the greatest norm seen so far in two scratch rows, reset at the first grid point and written out at
   the last; the host then bins both norm images into per-sample histograms over that common range and averages a
   Kullback–Leibler divergence. The reference computes the same norms, takes their global extrema by whole-array
   reductions, and applies the same host arithmetic.

   Frames. Each kernel program runs to the end without a fault and leaves its arguments alone: the region's body is run in
   its three cases (first, middle, last grid point) with the two scratch rows carried from point to point, and the host
   operations around the region are straight-line and write none of the region's arrays and neither argument. The reference's
   frame is its run with the result dropped. The idealization rewrote nothing, so `preserves` is `True`.

   Values, over the extended reals. The kernel program's two magnitude arrays are the norm images of its arguments (each
   grid point writes its block of them; the blocks tile the arrays). Its running minimum after a point is bounded below
   exactly by the lower bounds of the blocks seen so far, so after the last point it is the least entry of the two norm
   images; likewise the maximum. A minimum is determined by its lower bounds, so the reference's `min` of two whole-array
   minima is the same number: only the lattice laws of `min` and `max` are used, never finiteness of an entry. What follows
   the extrema is the same arithmetic with the same literals on both sides, carried as one function and never opened. -/
import proofs.«158077_j41790031790570_1_alg».proof.Defs
import proofs.«158077_j41790031790570_1_alg».proof.Proof.Gen.Kernel
import proofs.«158077_j41790031790570_1_alg».proof.Proof.Gen.KernelIdeal
import proofs.«158077_j41790031790570_1_alg».proof.Proof.Gen.ReferenceIdeal
import proofs.«158077_j41790031790570_1_alg».proof.Proof.Gen.Pre_finite_inputs
import proofs.«158077_j41790031790570_1_alg».proof.Proof.Gen.ReferenceIdeal.Run
import proofs.«158077_j41790031790570_1_alg».proof.Proof.Gen.ReferenceIdeal.Read
import proofs.«158077_j41790031790570_1_alg».proof.Proof.BitsFrame
import proofs.«158077_j41790031790570_1_alg».proof.Proof.IdealFrame
import proofs.«158077_j41790031790570_1_alg».proof.Proof.IdealResult
import proofs.«158077_j41790031790570_1_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Hand.frame (F := Bits) m ρ

theorem frame_kernelIdeal : @Cert.frame_KernelIdeal Cert.KernelIdeal.Gen.facts Cert.Pre_finite_inputs.Gen.facts :=
  fun m ρ _ => Cert.KernelIdeal.Hand.frame (F := Ideal) m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem preserves : Cert.preserves_Kernel_KernelIdeal := trivial

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Tail.result (F := Ideal)
      (Cert.Spec.norms (m ((c.tc : Thread Cert.KernelIdeal.nD Cert.KernelIdeal.τ).loc Cert.KernelIdeal.main_arg0)))
      (Cert.Spec.norms (m ((c.tc : Thread Cert.KernelIdeal.nD Cert.KernelIdeal.τ).loc Cert.KernelIdeal.main_arg1)))
      (fun _ => Cert.Extrema.lowest
        (Cert.Spec.norms (m ((c.tc : Thread Cert.KernelIdeal.nD Cert.KernelIdeal.τ).loc Cert.KernelIdeal.main_arg0)))
        (Cert.Spec.norms (m ((c.tc : Thread Cert.KernelIdeal.nD Cert.KernelIdeal.τ).loc Cert.KernelIdeal.main_arg1))))
      (fun _ => Cert.Extrema.highest
        (Cert.Spec.norms (m ((c.tc : Thread Cert.KernelIdeal.nD Cert.KernelIdeal.τ).loc Cert.KernelIdeal.main_arg0)))
        (Cert.Spec.norms (m ((c.tc : Thread Cert.KernelIdeal.nD Cert.KernelIdeal.τ).loc Cert.KernelIdeal.main_arg1)))),
    Cert.KernelIdeal.Hand.run_value m ρ, ?_⟩
  refine (θ_run Cert.ReferenceIdeal.defs _ _).mono (fun _ h c => ⟨?_, (h c).2.1, (h c).2.2⟩)
    (Cert.ReferenceIdeal.Value.run (F := Ideal) m' ρ')
  refine ((h c).1.trans (Cert.ReferenceIdeal.Read.val_main_v77_eq m' c)).trans ((Cert.ReferenceIdeal.RefValue.result_spec _ _).trans ?_)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
